-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x256x256x256 .f32) (main_arg1 : FVec F S768x256 .f32) (main_arg2 : FVec F S768 .f32) (main_arg3 : FVec F S256x256 .f32) (main_arg4 : FVec F S256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x256x256x256 : Shape := ⟨4, ![4, 256, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4x256x32x8x32x8 : Shape := ⟨6, ![4, 256, 32, 8, 32, 8]⟩
abbrev S4x32x32x8x8x256 : Shape := ⟨6, ![4, 32, 32, 8, 8, 256]⟩
abbrev S4096x64x256 : Shape := ⟨3, ![4096, 64, 256]⟩
abbrev S1x256 : Shape := ⟨2, ![1, 256]⟩
abbrev S32x64x256 : Shape := ⟨3, ![32, 64, 256]⟩
abbrev S2048x256 : Shape := ⟨2, ![2048, 256]⟩
abbrev S32x64x32 : Shape := ⟨3, ![32, 64, 32]⟩
abbrev S32x64x64 : Shape := ⟨3, ![32, 64, 64]⟩
abbrev S32x64 : Shape := ⟨2, ![32, 64]⟩
abbrev S32x64x1 : Shape := ⟨3, ![32, 64, 1]⟩

abbrev nBuf : Space → Nat
  | .hbm => 26
  | .vmem => 12
  | .smem => 0
  | _ => 0

abbrev bufTy : (tb : Table) → Fin (tcTables nBuf tb) → BufTy
  | .hbm, ⟨0, _⟩ => ⟨S4x256x256x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4x256x32x8x32x8, .f32⟩
  | .hbm, ⟨6, _⟩ => ⟨S4x32x32x8x8x256, .f32⟩
  | .hbm, ⟨7, _⟩ => ⟨S4096x64x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S1x256, .f32⟩
  | .hbm, ⟨16, _⟩ => ⟨S256, .f32⟩
  | .hbm, ⟨17, _⟩ => ⟨S1x256, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S1x256, .f32⟩
  | .hbm, ⟨22, _⟩ => ⟨S4096x64x256, .f32⟩
  | .hbm, ⟨23, _⟩ => ⟨S4x32x32x8x8x256, .f32⟩
  | .hbm, ⟨24, _⟩ => ⟨S4x256x32x8x32x8, .f32⟩
  | .hbm, ⟨25, _⟩ => ⟨S4x256x256x256, .f32⟩
  | .local _ .vmem, ⟨0, _⟩ => ⟨S32x64x256, .f32⟩
  | .local _ .vmem, ⟨1, _⟩ => ⟨S32x64x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S32x64x256, .f32⟩
  | .local _ .vmem, ⟨11, _⟩ => ⟨S32x64x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x256x256x256_S4x256x32x8x32x8 : S4x256x256x256.ShapeCasts S4x256x32x8x32x8
  transposes_S4x256x32x8x32x8_S4x32x32x8x8x256_0_2_4_3_5_1 : S4x256x32x8x32x8.Transposes [0, 2, 4, 3, 5, 1] S4x32x32x8x8x256
  shapeCasts_S4x32x32x8x8x256_S4096x64x256 : S4x32x32x8x8x256.ShapeCasts S4096x64x256
  slices_S768x256_S256x256_0_0 : S768x256.Slices ![0, 0] S256x256
  transposes_S256x256_S256x256_1_0 : S256x256.Transposes [1, 0] S256x256
  slices_S768x256_S256x256_256_0 : S768x256.Slices ![256, 0] S256x256
  slices_S768x256_S256x256_512_0 : S768x256.Slices ![512, 0] S256x256
  slices_S768_S256_0 : S768.Slices ![0] S256
  shapeCasts_S256_S1x256 : S256.ShapeCasts S1x256
  slices_S768_S256_256 : S768.Slices ![256] S256
  slices_S768_S256_512 : S768.Slices ![512] S256
  inb_S32x64x256_S32x64x256_0_0_0 : ∀ a, (![0, 0, 0] : Fin 3 → Nat) a + S32x64x256.size a ≤ S32x64x256.size a
  h_S32x64x256 : 0 < S32x64x256.numel
  shapeCasts_S32x64x256_S32x64x256 : S32x64x256.ShapeCasts S32x64x256
  bitsLt_bf16_f32 : FTy.bits .bf16 < FTy.bits .f32
  shapeCasts_S32x64x256_S2048x256 : S32x64x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S32x64x256 : S2048x256.ShapeCasts S32x64x256
  slices_S32x64x256_o0_0_0_S32x64x32 : S32x64x256.Slices ![0, 0, 0] S32x64x32
  reduces_S32x64x64_S32x64 : S32x64x64.Reduces [2] S32x64
  shapeCasts_S32x64_S32x64x1 : S32x64.ShapeCasts S32x64x1
  broadcasts_S32x64x1_S32x64x64 : S32x64x1.Broadcasts S32x64x64
  slices_S32x64x256_o0_0_32_S32x64x32 : S32x64x256.Slices ![0, 0, 32] S32x64x32
  slices_S32x64x256_o0_0_64_S32x64x32 : S32x64x256.Slices ![0, 0, 64] S32x64x32
  slices_S32x64x256_o0_0_96_S32x64x32 : S32x64x256.Slices ![0, 0, 96] S32x64x32
  slices_S32x64x256_o0_0_128_S32x64x32 : S32x64x256.Slices ![0, 0, 128] S32x64x32
  slices_S32x64x256_o0_0_160_S32x64x32 : S32x64x256.Slices ![0, 0, 160] S32x64x32
  slices_S32x64x256_o0_0_192_S32x64x32 : S32x64x256.Slices ![0, 0, 192] S32x64x32
  slices_S32x64x256_o0_0_224_S32x64x32 : S32x64x256.Slices ![0, 0, 224] S32x64x32
  concatenates_S32x64x32_S32x64x32_S32x64x32_S32x64x32_S32x64x32_S32x64x32_S32x64x32_S32x64x32_S32x64x256_d2 : Shape.Concatenates [S32x64x32, S32x64x32, S32x64x32, S32x64x32, S32x64x32, S32x64x32, S32x64x32, S32x64x32] S32x64x256 2
  shapeCasts_S4096x64x256_S4x32x32x8x8x256 : S4096x64x256.ShapeCasts S4x32x32x8x8x256
  transposes_S4x32x32x8x8x256_S4x256x32x8x32x8_0_5_1_3_2_4 : S4x32x32x8x8x256.Transposes [0, 5, 1, 3, 2, 4] S4x256x32x8x32x8
  shapeCasts_S4x256x32x8x32x8_S4x256x256x256 : S4x256x32x8x32x8.ShapeCasts S4x256x256x256
  dot_S2048x256_S256x256_S2048x256_1_0_0_1_n_n_wf : DotDims.WF S2048x256 S256x256 S2048x256 [1] [0] [0] [1] [] []
  dot_S32x64x32_S32x64x32_S32x64x64_2_2_1_1_0_0_wf : DotDims.WF S32x64x32 S32x64x32 S32x64x64 [2] [2] [1] [1] [0] [0]
  dot_S32x64x64_S32x64x32_S32x64x32_2_1_1_2_0_0_wf : DotDims.WF S32x64x64 S32x64x32 S32x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x256.size a ≤ S4096x64x256.size a
  hwx0_0 : ∀ i : grid0.Coords, EltTy.bits .f32 = 32 ∨ (Rect.block (s := S4096x64x256) S32x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x64x256.size a ≤ S4096x64x256.size a
  hwx0_9 : ∀ i : grid0.Coords, EltTy.bits .f32 = 32 ∨ (Rect.block (s := S4096x64x256) S32x64x256.size (cc0_transform_9 i) (hinb0_9 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x64x32_S32x64x32_S32x64x64_2_2_1_1_0_0 : DotDims S32x64x32 S32x64x32 S32x64x64 where
  lhsContracting := [2]
  rhsContracting := [2]
  lhsNonContracting := [1]
  rhsNonContracting := [1]
  lhsBatch := [0]
  rhsBatch := [0]
  wf := dot_S32x64x32_S32x64x32_S32x64x64_2_2_1_1_0_0_wf
def dot_S32x64x64_S32x64x32_S32x64x32_2_1_1_2_0_0 : DotDims S32x64x64 S32x64x32 S32x64x32 where
  lhsContracting := [2]
  rhsContracting := [1]
  lhsNonContracting := [1]
  rhsNonContracting := [2]
  lhsBatch := [0]
  rhsBatch := [0]
  wf := dot_S32x64x64_S32x64x32_S32x64x32_2_1_1_2_0_0_wf

abbrev win0_0 : Pipeline.Window sig grid0 :=
  Pipeline.Window.ofSpec (Memref.whole main_v2) S32x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S32x64x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4x256x32x8x32x8 : Shape := ⟨6, ![4, 256, 32, 8, 32, 8]⟩
abbrev S4x32x32x8x8x256 : Shape := ⟨6, ![4, 32, 32, 8, 8, 256]⟩
abbrev S4096x64x256 : Shape := ⟨3, ![4096, 64, 256]⟩
abbrev S4096x64x768 : Shape := ⟨3, ![4096, 64, 768]⟩
abbrev S1x1x768 : Shape := ⟨3, ![1, 1, 768]⟩
abbrev S4096x64x3x8x32 : Shape := ⟨5, ![4096, 64, 3, 8, 32]⟩
abbrev S3x4096x8x64x32 : Shape := ⟨5, ![3, 4096, 8, 64, 32]⟩
abbrev S1x4096x8x64x32 : Shape := ⟨5, ![1, 4096, 8, 64, 32]⟩
abbrev S4096x8x64x32 : Shape := ⟨4, ![4096, 8, 64, 32]⟩
abbrev S4096x8x64x64 : Shape := ⟨4, ![4096, 8, 64, 64]⟩
abbrev S_ : Shape := ⟨0, ![]⟩
abbrev S4096x8x64 : Shape := ⟨3, ![4096, 8, 64]⟩
abbrev S4096x8x64x1 : Shape := ⟨4, ![4096, 8, 64, 1]⟩
abbrev S4096x64x8x32 : Shape := ⟨4, ![4096, 64, 8, 32]⟩
abbrev S1x1x256 : Shape := ⟨3, ![1, 1, 256]⟩

abbrev nBuf : Space → Nat
  | .hbm => 48
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4x256x32x8x32x8, .f32⟩
  | .hbm, ⟨6, _⟩ => ⟨S4x32x32x8x8x256, .f32⟩
  | .hbm, ⟨7, _⟩ => ⟨S4096x64x256, .f32⟩
  | .hbm, ⟨8, _⟩ => ⟨S4096x64x768, .f32⟩
  | .hbm, ⟨9, _⟩ => ⟨S1x1x768, .f32⟩
  | .hbm, ⟨10, _⟩ => ⟨S4096x64x768, .f32⟩
  | .hbm, ⟨11, _⟩ => ⟨S4096x64x768, .f32⟩
  | .hbm, ⟨12, _⟩ => ⟨S4096x64x3x8x32, .f32⟩
  | .hbm, ⟨13, _⟩ => ⟨S3x4096x8x64x32, .f32⟩
  | .hbm, ⟨14, _⟩ => ⟨S1x4096x8x64x32, .f32⟩
  | .hbm, ⟨15, _⟩ => ⟨S4096x8x64x32, .f32⟩
  | .hbm, ⟨16, _⟩ => ⟨S1x4096x8x64x32, .f32⟩
  | .hbm, ⟨17, _⟩ => ⟨S4096x8x64x32, .f32⟩
  | .hbm, ⟨18, _⟩ => ⟨S1x4096x8x64x32, .f32⟩
  | .hbm, ⟨19, _⟩ => ⟨S4096x8x64x32, .f32⟩
  | .hbm, ⟨20, _⟩ => ⟨S4096x8x64x64, .f32⟩
  | .hbm, ⟨21, _⟩ => ⟨S_, .f32⟩
  | .hbm, ⟨22, _⟩ => ⟨S4096x8x64x64, .f32⟩
  | .hbm, ⟨23, _⟩ => ⟨S4096x8x64x64, .f32⟩
  | .hbm, ⟨24, _⟩ => ⟨S_, .f32⟩
  | .hbm, ⟨25, _⟩ => ⟨S4096x8x64, .f32⟩
  | .hbm, ⟨26, _⟩ => ⟨S_, .f32⟩
  | .hbm, ⟨27, _⟩ => ⟨S4096x8x64, .f32⟩
  | .hbm, ⟨28, _⟩ => ⟨S4096x8x64, .f32⟩
  | .hbm, ⟨29, _⟩ => ⟨S4096x8x64x1, .f32⟩
  | .hbm, ⟨30, _⟩ => ⟨S4096x8x64x64, .f32⟩
  | .hbm, ⟨31, _⟩ => ⟨S4096x8x64x64, .f32⟩
  | .hbm, ⟨32, _⟩ => ⟨S4096x8x64x64, .f32⟩
  | .hbm, ⟨33, _⟩ => ⟨S_, .f32⟩
  | .hbm, ⟨34, _⟩ => ⟨S4096x8x64, .f32⟩
  | .hbm, ⟨35, _⟩ => ⟨S4096x8x64x1, .f32⟩
  | .hbm, ⟨36, _⟩ => ⟨S4096x8x64x64, .f32⟩
  | .hbm, ⟨37, _⟩ => ⟨S4096x8x64x64, .f32⟩
  | .hbm, ⟨38, _⟩ => ⟨S4096x8x64x32, .f32⟩
  | .hbm, ⟨39, _⟩ => ⟨S4096x64x8x32, .f32⟩
  | .hbm, ⟨40, _⟩ => ⟨S4096x64x256, .f32⟩
  | .hbm, ⟨41, _⟩ => ⟨S4096x64x256, .f32⟩
  | .hbm, ⟨42, _⟩ => ⟨S1x1x256, .f32⟩
  | .hbm, ⟨43, _⟩ => ⟨S4096x64x256, .f32⟩
  | .hbm, ⟨44, _⟩ => ⟨S4096x64x256, .f32⟩
  | .hbm, ⟨45, _⟩ => ⟨S4x32x32x8x8x256, .f32⟩
  | .hbm, ⟨46, _⟩ => ⟨S4x256x32x8x32x8, .f32⟩
  | .hbm, ⟨47, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]

class Facts₀ : Prop where
  shapeCasts_S4x256x256x256_S4x256x32x8x32x8 : S4x256x256x256.ShapeCasts S4x256x32x8x32x8
  transposes_S4x256x32x8x32x8_S4x32x32x8x8x256_0_2_4_3_5_1 : S4x256x32x8x32x8.Transposes [0, 2, 4, 3, 5, 1] S4x32x32x8x8x256
  shapeCasts_S4x32x32x8x8x256_S4096x64x256 : S4x32x32x8x8x256.ShapeCasts S4096x64x256
  bcast_S768_S1x1x768_2 : S768.BroadcastsInDim S1x1x768 (![2] : Fin 1 → Fin S1x1x768.rank)
  bcast_S1x1x768_S4096x64x768_0_1_2 : S1x1x768.BroadcastsInDim S4096x64x768 (![0, 1, 2] : Fin 3 → Fin S4096x64x768.rank)
  shapeCasts_S4096x64x768_S4096x64x3x8x32 : S4096x64x768.ShapeCasts S4096x64x3x8x32
  transposes_S4096x64x3x8x32_S3x4096x8x64x32_2_0_3_1_4 : S4096x64x3x8x32.Transposes [2, 0, 3, 1, 4] S3x4096x8x64x32
  slices_S3x4096x8x64x32_S1x4096x8x64x32_0_0_0_0_0 : S3x4096x8x64x32.Slices ![0, 0, 0, 0, 0] S1x4096x8x64x32
  shapeCasts_S1x4096x8x64x32_S4096x8x64x32 : S1x4096x8x64x32.ShapeCasts S4096x8x64x32
  slices_S3x4096x8x64x32_S1x4096x8x64x32_1_0_0_0_0 : S3x4096x8x64x32.Slices ![1, 0, 0, 0, 0] S1x4096x8x64x32
  slices_S3x4096x8x64x32_S1x4096x8x64x32_2_0_0_0_0 : S3x4096x8x64x32.Slices ![2, 0, 0, 0, 0] S1x4096x8x64x32
  bcast_S_S4096x8x64x64 : S_.BroadcastsInDim S4096x8x64x64 (![] : Fin 0 → Fin S4096x8x64x64.rank)
  reducesTo_S4096x8x64x64_S4096x8x64_d3 : S4096x8x64x64.ReducesTo [3] S4096x8x64
  h_S_ : 0 < S_.numel
  bcast_S_S4096x8x64 : S_.BroadcastsInDim S4096x8x64 (![] : Fin 0 → Fin S4096x8x64.rank)
  bcast_S4096x8x64_S4096x8x64x1_0_1_2 : S4096x8x64.BroadcastsInDim S4096x8x64x1 (![0, 1, 2] : Fin 3 → Fin S4096x8x64x1.rank)
  bcast_S4096x8x64x1_S4096x8x64x64_0_1_2_3 : S4096x8x64x1.BroadcastsInDim S4096x8x64x64 (![0, 1, 2, 3] : Fin 4 → Fin S4096x8x64x64.rank)
  transposes_S4096x8x64x32_S4096x64x8x32_0_2_1_3 : S4096x8x64x32.Transposes [0, 2, 1, 3] S4096x64x8x32
  shapeCasts_S4096x64x8x32_S4096x64x256 : S4096x64x8x32.ShapeCasts S4096x64x256
  bcast_S256_S1x1x256_2 : S256.BroadcastsInDim S1x1x256 (![2] : Fin 1 → Fin S1x1x256.rank)
  bcast_S1x1x256_S4096x64x256_0_1_2 : S1x1x256.BroadcastsInDim S4096x64x256 (![0, 1, 2] : Fin 3 → Fin S4096x64x256.rank)
  shapeCasts_S4096x64x256_S4x32x32x8x8x256 : S4096x64x256.ShapeCasts S4x32x32x8x8x256
  transposes_S4x32x32x8x8x256_S4x256x32x8x32x8_0_5_1_3_2_4 : S4x32x32x8x8x256.Transposes [0, 5, 1, 3, 2, 4] S4x256x32x8x32x8
  shapeCasts_S4x256x32x8x32x8_S4x256x256x256 : S4x256x32x8x32x8.ShapeCasts S4x256x256x256
  dot_S4096x64x256_S768x256_S4096x64x768_2_1_01_0_n_n_wf : DotDims.WF S4096x64x256 S768x256 S4096x64x768 [2] [1] [0, 1] [0] [] []
  dot_S4096x8x64x32_S4096x8x64x32_S4096x8x64x64_3_3_2_2_01_01_wf : DotDims.WF S4096x8x64x32 S4096x8x64x32 S4096x8x64x64 [3] [3] [2] [2] [0, 1] [0, 1]
  dot_S4096x8x64x64_S4096x8x64x32_S4096x8x64x32_3_2_2_3_01_01_wf : DotDims.WF S4096x8x64x64 S4096x8x64x32 S4096x8x64x32 [3] [2] [2] [3] [0, 1] [0, 1]
  dot_S4096x64x256_S256x256_S4096x64x256_2_1_01_0_n_n_wf : DotDims.WF S4096x64x256 S256x256 S4096x64x256 [2] [1] [0, 1] [0] [] []

variable [Facts₀]

def dot_S4096x64x256_S768x256_S4096x64x768_2_1_01_0_n_n : DotDims S4096x64x256 S768x256 S4096x64x768 where
  lhsContracting := [2]
  rhsContracting := [1]
  lhsNonContracting := [0, 1]
  rhsNonContracting := [0]
  lhsBatch := []
  rhsBatch := []
  wf := dot_S4096x64x256_S768x256_S4096x64x768_2_1_01_0_n_n_wf
def dot_S4096x8x64x32_S4096x8x64x32_S4096x8x64x64_3_3_2_2_01_01 : DotDims S4096x8x64x32 S4096x8x64x32 S4096x8x64x64 where
  lhsContracting := [3]
  rhsContracting := [3]
  lhsNonContracting := [2]
  rhsNonContracting := [2]
  lhsBatch := [0, 1]
  rhsBatch := [0, 1]
  wf := dot_S4096x8x64x32_S4096x8x64x32_S4096x8x64x64_3_3_2_2_01_01_wf
def dot_S4096x8x64x64_S4096x8x64x32_S4096x8x64x32_3_2_2_3_01_01 : DotDims S4096x8x64x64 S4096x8x64x32 S4096x8x64x32 where
  lhsContracting := [3]
  rhsContracting := [2]
  lhsNonContracting := [2]
  rhsNonContracting := [3]
  lhsBatch := [0, 1]
  rhsBatch := [0, 1]
  wf := dot_S4096x8x64x64_S4096x8x64x32_S4096x8x64x32_3_2_2_3_01_01_wf
def dot_S4096x64x256_S256x256_S4096x64x256_2_1_01_0_n_n : DotDims S4096x64x256 S256x256 S4096x64x256 where
  lhsContracting := [2]
  rhsContracting := [1]
  lhsNonContracting := [0, 1]
  rhsNonContracting := [0]
  lhsBatch := []
  rhsBatch := []
  wf := dot_S4096x64x256_S256x256_S4096x64x256_2_1_01_0_n_n_wf

class Facts : Prop extends Facts₀ where

variable [Facts]
-- ==== Proof.Spec.lean ====
/-
  The mathematics both programs compute, for ONE attention window of 64 tokens with 256 channels, written index by
  index over the extended reals.

  A window `x : 64 × 256` is projected by the rows of the stacked weight `w : 768 × 256` (rows 0–255 the queries,
  256–511 the keys, 512–767 the values; row `256·g + 32·h + d` is channel `d` of head `h` of part `g`) plus the bias
  `b`. Per head `h` the scores are `(∑_d q[τ,h,d] · k[σ,h,d]) · scale`, a row's maximum is taken over `σ`, the
  weights are `exp (score − max)` divided by their sum over `σ`, and the head's output is `∑_σ weight[τ,σ] · v[σ,h,d]`.
  The heads' outputs, laid side by side as 256 channels `c' = 32·h + d`, are projected by `wp : 256 × 256` (row `o` the
  output channel) plus `bp`.
-/
import Idealize.ShloMosaic.PureOps.Ideal
import Idealize.ShloMosaic.Lib.ValueIdx

noncomputable section

namespace Cert.WinAttn

open Idealize.ShloMosaic

/-- Row of the stacked projection weight holding channel `d` of head `h` of part `g` (0 query, 1 key, 2 value). -/
def row (g : Fin 3) (h : Fin 8) (d : Fin 32) : Fin 768 := ⟨256 * g.val + 32 * h.val + d.val, by omega⟩

/-- The head a concatenated channel belongs to, and its place inside the head. -/
def hOf (c : Fin 256) : Fin 8 := ⟨c.val / 32, by omega⟩
def dOf (c : Fin 256) : Fin 32 := ⟨c.val % 32, by omega⟩

/-- The score scale both programs multiply by: the same binary32 word on both sides, never evaluated. -/
def scale : EReal := Ideal.ofBits .f32 0x3E3504F3#32

/-- The value the row maximum starts from (the word of −∞), never evaluated either. -/
def ninf : EReal := Ideal.ofBits .f32 0xFF800000#32

variable (x : Fin 64 → Fin 256 → EReal) (w : Fin 768 → Fin 256 → EReal) (b : Fin 768 → EReal)
  (wp : Fin 256 → Fin 256 → EReal) (bp : Fin 256 → EReal)

/-- Part `g`'s projection of token `τ`, head `h`, channel `d`. -/
def lin (g : Fin 3) (τ : Fin 64) (h : Fin 8) (d : Fin 32) : EReal :=
  (∑ c : Fin 256, x τ c * w (row g h d) c) + b (row g h d)

/-- Scaled score of query token `τ` against key token `σ` in head `h`. -/
def score (h : Fin 8) (τ σ : Fin 64) : EReal :=
  (∑ d : Fin 32, lin x w b 0 τ h d * lin x w b 1 σ h d) * scale

/-- The row maximum of the scores, folded from −∞ (and once more compared with −∞, which changes nothing). -/
def smax (h : Fin 8) (τ : Fin 64) : EReal :=
  max ninf ((Finset.univ : Finset (Fin 64)).fold max ninf (fun σ => score x w b h τ σ))

/-- The unnormalized softmax weight. -/
def ex (h : Fin 8) (τ σ : Fin 64) : EReal := Ideal.exp (score x w b h τ σ - smax x w b h τ)

/-- The softmax weight. -/
def prob (h : Fin 8) (τ σ : Fin 64) : EReal := Ideal.div (ex x w b h τ σ) (∑ σ' : Fin 64, ex x w b h τ σ')

/-- Head `h`'s output at token `τ`, channel `d`. -/
def headOut (τ : Fin 64) (h : Fin 8) (d : Fin 32) : EReal := ∑ σ : Fin 64, prob x w b h τ σ * lin x w b 2 σ h d

/-- The window's result at token `τ`, output channel `o`. -/
def out (τ : Fin 64) (o : Fin 256) : EReal :=
  (∑ c : Fin 256, headOut x w b τ (hOf c) (dOf c) * wp o c) + bp o

end Cert.WinAttn

end
-- ==== Proof.KDots.lean ====
/-
  The three matrix products of the kernel body read at an index, at the ideal values: into a zero accumulator each is
  the plain sum over its one contracted axis. `proj`: rows × (in, out) weights; `qk`: per window, query rows against
  key rows over the head's channels; `av`: per window, softmax weights against value rows over the key tokens.
-/
import proofs.«155583_j73237782331844_1_alg».proof.Proof.Gen.KernelIdeal
import Idealize.ShloMosaic.Lib.ValueIdx
import Idealize.ShloMosaic.PureOps.Ideal.Laws

noncomputable section

namespace Cert.KSide

open Cert.KernelIdeal Idealize.ShloMosaic Idealize.ShloMosaic.ValueIdx

theorem proj_l_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem proj_l_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem proj_r_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem proj_r_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem proj_apply (l : FVec Ideal S2048x256 .bf16) (r : FVec Ideal S256x256 .bf16) (ρ : Fin 2048) (j : Fin 256) :
    matmul dot_S2048x256_S256x256_S2048x256_1_0_0_1_n_n none l r (constant S2048x256 .f32 0x00000000#32) (ix2 ρ j)
      = ∑ k : Fin 256, l (ix2 ρ k) * r (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 ρ j) ((contrEquiv1 dot_S2048x256_S256x256_S2048x256_1_0_0_1_n_n 256 rfl rfl).symm k) = ix2 ρ k := funext fun a => Fin.ext (by
    match a with
    | ⟨0, _⟩ => exact proj_l_0 _ _
    | ⟨1, _⟩ => exact (proj_l_1 _ _).trans hk)
  have er : dot_S2048x256_S256x256_S2048x256_1_0_0_1_n_n.rhsIdx (ix2 ρ j) ((contrEquiv1 dot_S2048x256_S256x256_S2048x256_1_0_0_1_n_n 256 rfl rfl).symm k) = ix2 k j := funext fun a => Fin.ext (by
    match a with
    | ⟨0, _⟩ => exact (proj_r_0 _ _).trans hk
    | ⟨1, _⟩ => exact proj_r_1 _ _)
  rw [el, er]

theorem qk_l_0 (i : S32x64x64.Idx) (q : dot_S32x64x32_S32x64x32_S32x64x64_2_2_1_1_0_0.contr.Idx) :
    (dot_S32x64x32_S32x64x32_S32x64x64_2_2_1_1_0_0.lhsIdx i q 0).val = (i 0).val := by
  unfold DotDims.lhsIdx
  rw [dif_pos (show (0 : Fin S32x64x32.rank) ∈ dot_S32x64x32_S32x64x32_S32x64x64_2_2_1_1_0_0.lhsBatch by decide)]
  rfl
theorem qk_l_1 (i : S32x64x64.Idx) (q : dot_S32x64x32_S32x64x32_S32x64x64_2_2_1_1_0_0.contr.Idx) :
    (dot_S32x64x32_S32x64x32_S32x64x64_2_2_1_1_0_0.lhsIdx i q 1).val = (i 1).val := by
  unfold DotDims.lhsIdx
  rw [dif_neg (show ¬(1 : Fin S32x64x32.rank) ∈ dot_S32x64x32_S32x64x32_S32x64x64_2_2_1_1_0_0.lhsBatch by decide), dif_pos (show (1 : Fin S32x64x32.rank) ∈ dot_S32x64x32_S32x64x32_S32x64x64_2_2_1_1_0_0.lhsNonContracting by decide)]
  rfl
theorem qk_l_2 (i : S32x64x64.Idx) (q : dot_S32x64x32_S32x64x32_S32x64x64_2_2_1_1_0_0.contr.Idx) :
    (dot_S32x64x32_S32x64x32_S32x64x64_2_2_1_1_0_0.lhsIdx i q 2).val = (q ⟨0, by decide⟩).val :=
  dot_S32x64x32_S32x64x32_S32x64x64_2_2_1_1_0_0.lhsIdx_val_of_single rfl i q
theorem qk_r_0 (i : S32x64x64.Idx) (q : dot_S32x64x32_S32x64x32_S32x64x64_2_2_1_1_0_0.contr.Idx) :
    (dot_S32x64x32_S32x64x32_S32x64x64_2_2_1_1_0_0.rhsIdx i q 0).val = (i 0).val := by
  unfold DotDims.rhsIdx
  rw [dif_pos (show (0 : Fin S32x64x32.rank) ∈ dot_S32x64x32_S32x64x32_S32x64x64_2_2_1_1_0_0.rhsBatch by decide)]
  rfl
theorem qk_r_1 (i : S32x64x64.Idx) (q : dot_S32x64x32_S32x64x32_S32x64x64_2_2_1_1_0_0.contr.Idx) :
    (dot_S32x64x32_S32x64x32_S32x64x64_2_2_1_1_0_0.rhsIdx i q 1).val = (i 2).val := by
  unfold DotDims.rhsIdx
  rw [dif_neg (show ¬(1 : Fin S32x64x32.rank) ∈ dot_S32x64x32_S32x64x32_S32x64x64_2_2_1_1_0_0.rhsBatch by decide), dif_pos (show (1 : Fin S32x64x32.rank) ∈ dot_S32x64x32_S32x64x32_S32x64x64_2_2_1_1_0_0.rhsNonContracting by decide)]
  rfl
theorem qk_r_2 (i : S32x64x64.Idx) (q : dot_S32x64x32_S32x64x32_S32x64x64_2_2_1_1_0_0.contr.Idx) :
    (dot_S32x64x32_S32x64x32_S32x64x64_2_2_1_1_0_0.rhsIdx i q 2).val = (q ⟨0, by decide⟩).val :=
  dot_S32x64x32_S32x64x32_S32x64x64_2_2_1_1_0_0.rhsIdx_val_of_single rfl i q

theorem qk_apply (l : FVec Ideal S32x64x32 .bf16) (r : FVec Ideal S32x64x32 .bf16) (p : Fin 32) (τ σ : Fin 64) :
    matmul dot_S32x64x32_S32x64x32_S32x64x64_2_2_1_1_0_0 none l r (constant S32x64x64 .f32 0x00000000#32) (ix3 p τ σ)
      = ∑ k : Fin 32, l (ix3 p τ k) * r (ix3 p σ k) := by
  simp only [matmul]
  rw [Ideal.matmul_constant_zero_apply, ← Equiv.sum_comp (contrEquiv1 dot_S32x64x32_S32x64x32_S32x64x64_2_2_1_1_0_0 32 rfl rfl).symm]
  refine Finset.sum_congr rfl fun k _ => ?_
  have hk := contrEquiv1_symm_val dot_S32x64x32_S32x64x32_S32x64x64_2_2_1_1_0_0 32 rfl rfl k
  have el : dot_S32x64x32_S32x64x32_S32x64x64_2_2_1_1_0_0.lhsIdx (ix3 p τ σ) ((contrEquiv1 dot_S32x64x32_S32x64x32_S32x64x64_2_2_1_1_0_0 32 rfl rfl).symm k) = ix3 p τ k := funext fun a => Fin.ext (by
    match a with
    | ⟨0, _⟩ => exact qk_l_0 _ _
    | ⟨1, _⟩ => exact qk_l_1 _ _
    | ⟨2, _⟩ => exact (qk_l_2 _ _).trans hk)
  have er : dot_S32x64x32_S32x64x32_S32x64x64_2_2_1_1_0_0.rhsIdx (ix3 p τ σ) ((contrEquiv1 dot_S32x64x32_S32x64x32_S32x64x64_2_2_1_1_0_0 32 rfl rfl).symm k) = ix3 p σ k := funext fun a => Fin.ext (by
    match a with
    | ⟨0, _⟩ => exact qk_r_0 _ _
    | ⟨1, _⟩ => exact qk_r_1 _ _
    | ⟨2, _⟩ => exact (qk_r_2 _ _).trans hk)
  rw [el, er]

theorem av_l_0 (i : S32x64x32.Idx) (q : dot_S32x64x64_S32x64x32_S32x64x32_2_1_1_2_0_0.contr.Idx) :
    (dot_S32x64x64_S32x64x32_S32x64x32_2_1_1_2_0_0.lhsIdx i q 0).val = (i 0).val := by
  unfold DotDims.lhsIdx
  rw [dif_pos (show (0 : Fin S32x64x64.rank) ∈ dot_S32x64x64_S32x64x32_S32x64x32_2_1_1_2_0_0.lhsBatch by decide)]
  rfl
theorem av_l_1 (i : S32x64x32.Idx) (q : dot_S32x64x64_S32x64x32_S32x64x32_2_1_1_2_0_0.contr.Idx) :
    (dot_S32x64x64_S32x64x32_S32x64x32_2_1_1_2_0_0.lhsIdx i q 1).val = (i 1).val := by
  unfold DotDims.lhsIdx
  rw [dif_neg (show ¬(1 : Fin S32x64x64.rank) ∈ dot_S32x64x64_S32x64x32_S32x64x32_2_1_1_2_0_0.lhsBatch by decide), dif_pos (show (1 : Fin S32x64x64.rank) ∈ dot_S32x64x64_S32x64x32_S32x64x32_2_1_1_2_0_0.lhsNonContracting by decide)]
  rfl
theorem av_l_2 (i : S32x64x32.Idx) (q : dot_S32x64x64_S32x64x32_S32x64x32_2_1_1_2_0_0.contr.Idx) :
    (dot_S32x64x64_S32x64x32_S32x64x32_2_1_1_2_0_0.lhsIdx i q 2).val = (q ⟨0, by decide⟩).val :=
  dot_S32x64x64_S32x64x32_S32x64x32_2_1_1_2_0_0.lhsIdx_val_of_single rfl i q
theorem av_r_0 (i : S32x64x32.Idx) (q : dot_S32x64x64_S32x64x32_S32x64x32_2_1_1_2_0_0.contr.Idx) :
    (dot_S32x64x64_S32x64x32_S32x64x32_2_1_1_2_0_0.rhsIdx i q 0).val = (i 0).val := by
  unfold DotDims.rhsIdx
  rw [dif_pos (show (0 : Fin S32x64x32.rank) ∈ dot_S32x64x64_S32x64x32_S32x64x32_2_1_1_2_0_0.rhsBatch by decide)]
  rfl
theorem av_r_1 (i : S32x64x32.Idx) (q : dot_S32x64x64_S32x64x32_S32x64x32_2_1_1_2_0_0.contr.Idx) :
    (dot_S32x64x64_S32x64x32_S32x64x32_2_1_1_2_0_0.rhsIdx i q 1).val = (q ⟨0, by decide⟩).val :=
  dot_S32x64x64_S32x64x32_S32x64x32_2_1_1_2_0_0.rhsIdx_val_of_single rfl i q
theorem av_r_2 (i : S32x64x32.Idx) (q : dot_S32x64x64_S32x64x32_S32x64x32_2_1_1_2_0_0.contr.Idx) :
    (dot_S32x64x64_S32x64x32_S32x64x32_2_1_1_2_0_0.rhsIdx i q 2).val = (i 2).val := by
  unfold DotDims.rhsIdx
  rw [dif_neg (show ¬(2 : Fin S32x64x32.rank) ∈ dot_S32x64x64_S32x64x32_S32x64x32_2_1_1_2_0_0.rhsBatch by decide), dif_pos (show (2 : Fin S32x64x32.rank) ∈ dot_S32x64x64_S32x64x32_S32x64x32_2_1_1_2_0_0.rhsNonContracting by decide)]
  rfl

theorem av_apply (l : FVec Ideal S32x64x64 .bf16) (r : FVec Ideal S32x64x32 .bf16) (p : Fin 32) (τ : Fin 64) (d : Fin 32) :
    matmul dot_S32x64x64_S32x64x32_S32x64x32_2_1_1_2_0_0 none l r (constant S32x64x32 .f32 0x00000000#32) (ix3 p τ d)
      = ∑ k : Fin 64, l (ix3 p τ k) * r (ix3 p k d) := by
  simp only [matmul]
  rw [Ideal.matmul_constant_zero_apply, ← Equiv.sum_comp (contrEquiv1 dot_S32x64x64_S32x64x32_S32x64x32_2_1_1_2_0_0 64 rfl rfl).symm]
  refine Finset.sum_congr rfl fun k _ => ?_
  have hk := contrEquiv1_symm_val dot_S32x64x64_S32x64x32_S32x64x32_2_1_1_2_0_0 64 rfl rfl k
  have el : dot_S32x64x64_S32x64x32_S32x64x32_2_1_1_2_0_0.lhsIdx (ix3 p τ d) ((contrEquiv1 dot_S32x64x64_S32x64x32_S32x64x32_2_1_1_2_0_0 64 rfl rfl).symm k) = ix3 p τ k := funext fun a => Fin.ext (by
    match a with
    | ⟨0, _⟩ => exact av_l_0 _ _
    | ⟨1, _⟩ => exact av_l_1 _ _
    | ⟨2, _⟩ => exact (av_l_2 _ _).trans hk)
  have er : dot_S32x64x64_S32x64x32_S32x64x32_2_1_1_2_0_0.rhsIdx (ix3 p τ d) ((contrEquiv1 dot_S32x64x64_S32x64x32_S32x64x32_2_1_1_2_0_0 64 rfl rfl).symm k) = ix3 p k d := funext fun a => Fin.ext (by
    match a with
    | ⟨0, _⟩ => exact av_r_0 _ _
    | ⟨1, _⟩ => exact (av_r_1 _ _).trans hk
    | ⟨2, _⟩ => exact av_r_2 _ _)
  rw [el, er]

end Cert.KSide

end
-- ==== Proof.KLayout.lean ====
/-
  The layout operations of the kernel body read at an index, at the body's own shapes: the cast between a block's
  (window, token) pairs and its 2048 flattened rows, a head's 32 channels cut out of the 256, a row statistic kept as a
  unit column and spread back over the 64 key tokens, and the eight heads laid side by side.
-/
import proofs.«155583_j73237782331844_1_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KSide

open Cert.KernelIdeal Idealize.ShloMosaic Idealize.ShloMosaic.ValueIdx

variable {α : Type}

/-- The flattened row of token `τ` of window `p` of a block. -/
def rowOf (p : Fin 32) (τ : Fin 64) : Fin 2048 := ⟨64 * p.val + τ.val, by omega⟩

/-- The channel `off + d` of a head starting at `off`. -/
def chanAt (off : Nat) (hoff : off + 32 ≤ 256) (d : Fin 32) : Fin 256 := ⟨off + d.val, by omega⟩

theorem flat_apply (v : S32x64x256.Idx → α) (h : S32x64x256.ShapeCasts S2048x256) (p : Fin 32) (τ : Fin 64) (c : Fin 256) :
    shapeCast S2048x256 v h (ix2 (rowOf p τ) c) = v (ix3 p τ c) :=
  shapeCast_apply v h _ _ (by
    rw [Shape.rowMajor_val_three, Shape.rowMajor_val_two]
    show (p.val * 64 + τ.val) * 256 + c.val = (64 * p.val + τ.val) * 256 + c.val
    omega)

theorem unflat_apply (v : S2048x256.Idx → α) (h : S2048x256.ShapeCasts S32x64x256) (p : Fin 32) (τ : Fin 64) (c : Fin 256) :
    shapeCast S32x64x256 v h (ix3 p τ c) = v (ix2 (rowOf p τ) c) :=
  shapeCast_apply v h _ _ (by
    rw [Shape.rowMajor_val_three, Shape.rowMajor_val_two]
    show (64 * p.val + τ.val) * 256 + c.val = (p.val * 64 + τ.val) * 256 + c.val
    omega)

theorem headSlice_apply (off : Nat) (hoff : off + 32 ≤ 256) (v : S32x64x256.Idx → α)
    (h : S32x64x256.Slices ![0, 0, off] S32x64x32) (p : Fin 32) (τ : Fin 64) (d : Fin 32) :
    extractStridedSlice S32x64x32 ![0, 0, off] v h (ix3 p τ d) = v (ix3 p τ (chanAt off hoff d)) :=
  extractStridedSlice_apply _ _ _ _ _ (fun ax => by
    match ax with
    | ⟨0, _⟩ => exact (Nat.zero_add _).symm
    | ⟨1, _⟩ => exact (Nat.zero_add _).symm
    | ⟨2, _⟩ => rfl)

theorem keep_apply (v : S32x64.Idx → α) (h : S32x64.ShapeCasts S32x64x1) (p : Fin 32) (τ : Fin 64) (u : Fin 1) :
    shapeCast S32x64x1 v h (ix3 p τ u) = v (ix2 p τ) :=
  shapeCast_apply v h _ _ (by
    rw [Shape.rowMajor_val_three, Shape.rowMajor_val_two]
    show p.val * 64 + τ.val = (p.val * 64 + τ.val) * 1 + u.val
    omega)

theorem spread_apply (v : S32x64x1.Idx → α) (h : S32x64x1.Broadcasts S32x64x64) (p : Fin 32) (τ σ : Fin 64) :
    broadcastTo S32x64x64 v h (ix3 p τ σ) = v (ix3 p τ (0 : Fin 1)) := by
  refine broadcastTo_apply v h (ix3 p τ σ) (ix3 p τ (0 : Fin 1)) fun ax => ?_
  match ax with
  | ⟨0, _⟩ => rfl
  | ⟨1, _⟩ => rfl
  | ⟨2, _⟩ => rfl

theorem biasRow_apply (v : S1x256.Idx → α) (h : S1x256.Broadcasts S2048x256) (ρ : Fin 2048) (c : Fin 256) :
    broadcastTo S2048x256 v h (ix2 ρ c) = v (ix2 (0 : Fin 1) c) :=
  broadcastTo_1b_ab_apply v h ρ c

theorem lift_eq (h : S32x64x64.Reduces [2] S32x64) (p : Fin 32) (τ σ : Fin 64) :
    Shape.Reduces.lift h (ix2 p τ) σ = ix3 p τ σ :=
  funext fun a => by
    match a with
    | ⟨0, _⟩ => exact Fin.ext rfl
    | ⟨1, _⟩ => exact Fin.ext rfl
    | ⟨2, _⟩ => exact Fin.ext rfl

end Cert.KSide

end
-- ==== Proof.KHead.lean ====
/-
  One attention head of the kernel body read at an index, at the ideal values. Given the head's query, key and value
  slices of a block, the body forms the scores `(∑_k q[p,τ,k]·k[p,σ,k])·scale`, subtracts the row maximum, exponentiates,
  divides by the row sum and multiplies into the values: at `(p, τ, d)` this is the softmax-weighted sum `attn` of the
  value column `σ ↦ v[p,σ,d]` under the score row `σ ↦ score[p,τ,σ]`.
-/
import proofs.«155583_j73237782331844_1_alg».proof.Proof.Gen.KernelIdeal.Skeleton
import proofs.«155583_j73237782331844_1_alg».proof.Proof.Spec
import proofs.«155583_j73237782331844_1_alg».proof.Proof.KDots
import proofs.«155583_j73237782331844_1_alg».proof.Proof.KLayout

noncomputable section

namespace Cert.KSide

open Cert.KernelIdeal Cert.KernelIdeal.Gen Idealize.ShloMosaic Idealize.ShloMosaic.ValueIdx Cert.WinAttn

/-- The softmax-weighted sum of `V` under the score row `S`: weights `exp (S σ − max S)` over their sum. -/
def attn (S V : Fin 64 → EReal) : EReal :=
  ∑ σ : Fin 64, Ideal.div (Ideal.exp (S σ - max ninf ((Finset.univ : Finset (Fin 64)).fold max ninf S)))
      (∑ σ' : Fin 64, Ideal.exp (S σ' - max ninf ((Finset.univ : Finset (Fin 64)).fold max ninf S))) * V σ

/-- A head's output in the specification is that weighted sum of its value column under its score row. -/
theorem headOut_eq_attn (x : Fin 64 → Fin 256 → EReal) (w : Fin 768 → Fin 256 → EReal) (b : Fin 768 → EReal)
    (τ : Fin 64) (h : Fin 8) (d : Fin 32) :
    headOut x w b τ h d = attn (fun σ => score x w b h τ σ) (fun σ => lin x w b 2 σ h d) := rfl

/-- A maximum folded from −∞ is not below −∞, so comparing it with −∞ once more changes nothing. -/
theorem fold_max_ninf (S : Fin 64 → EReal) :
    (Finset.univ : Finset (Fin 64)).fold max ninf S = max ninf ((Finset.univ : Finset (Fin 64)).fold max ninf S) :=
  (max_eq_right ((Finset.le_fold_max _).2 (Or.inl le_rfl))).symm

theorem exp_apply {s : Shape} {φ : FTy} (a : FVec Ideal s φ) (i : s.Idx) : exp a i = Ideal.exp (a i) := rfl

/-- A row's maximum over the key tokens, folded from the word of −∞. -/
theorem rowMax_apply (src : FVec Ideal S32x64x64 .f32) (h : S32x64x64.Reduces [2] S32x64) (hφ : FKind.Formats .f32)
    (hacc : (0xFF800000#32 : BitVec 32) = 0xFF800000#32) (p : Fin 32) (τ : Fin 64) :
    multiReduction .maximumf [2] S32x64 src 0xFF800000#32 h hφ hacc (ix2 p τ)
      = (Finset.univ : Finset (Fin 64)).fold max ninf (fun σ => src (ix3 p τ σ)) := by
  refine (Ideal.multiReduction_maximumf_single src 0xFF800000#32 h hφ hacc (ix2 p τ)).trans ?_
  show (Finset.univ : Finset (Fin 64)).fold max ninf (src ∘ Shape.Reduces.lift h (ix2 p τ)) = _
  congr 1
  funext σ
  exact congrArg src (lift_eq h p τ σ)

/-- A row's sum over the key tokens. -/
theorem rowSum_apply (src : FVec Ideal S32x64x64 .f32) (h : S32x64x64.Reduces [2] S32x64) (hφ : FKind.Formats .f32)
    (hacc : (0x00000000#32 : BitVec 32) = 0x00000000#32) (p : Fin 32) (τ : Fin 64) :
    multiReduction .add [2] S32x64 src 0x00000000#32 h hφ hacc (ix2 p τ)
      = ∑ σ : Fin 64, src (ix3 p τ σ) := by
  refine (Ideal.multiReduction_add_single src 0x00000000#32 h hφ hacc (ix2 p τ)).trans ?_
  show ∑ σ : Fin 64, src (Shape.Reduces.lift h (ix2 p τ) σ) = _
  exact Finset.sum_congr rfl fun σ _ => congrArg src (lift_eq h p τ σ)

/-- One head at an index. -/
theorem head_apply (qh kh vh : FVec Ideal S32x64x32 .bf16) (p : Fin 32) (τ : Fin 64) (d : Fin 32) :
    k0_pay9 (F := Ideal) vh
        (matmul dot_S32x64x32_S32x64x32_S32x64x64_2_2_1_1_0_0 none qh kh (constant S32x64x64 .f32 0x00000000#32))
        (k0_pay8 (F := Ideal)) (ix3 p τ d)
      = attn (fun σ => (∑ k : Fin 32, qh (ix3 p τ k) * kh (ix3 p σ k)) * scale) (fun σ => vh (ix3 p σ d)) := by
  unfold k0_pay9 k0_pay8 attn
  simp only [av_apply, truncf_apply, divf_apply, spread_apply, keep_apply]
  rw [rowSum_apply]
  simp only [exp_apply, subf_apply, spread_apply, keep_apply]
  rw [rowMax_apply]
  simp only [mulf_apply, qk_apply, broadcast_apply, ← fold_max_ninf]
  rfl

end Cert.KSide

end
-- ==== Proof.KProj.lean ====
/-
  The three input projections of the kernel body read at an index, at the ideal values: a block's row `(p, τ)` against
  column `j` of an (in, out) weight, plus the bias row — `(∑_c x[p,τ,c]·wt[c,j]) + bs[0,j]`. The query, key and value
  projections are the same function of their weight and bias.
-/
import proofs.«155583_j73237782331844_1_alg».proof.Proof.Gen.KernelIdeal.Skeleton
import proofs.«155583_j73237782331844_1_alg».proof.Proof.KDots
import proofs.«155583_j73237782331844_1_alg».proof.Proof.KLayout

noncomputable section

namespace Cert.KSide

open Cert.KernelIdeal Cert.KernelIdeal.Gen Idealize.ShloMosaic Idealize.ShloMosaic.ValueIdx

theorem projQ_apply (x0 : FVec Ideal S32x64x256 .f32) (wt : FVec Ideal S256x256 .f32) (bs : FVec Ideal S1x256 .f32)
    (p : Fin 32) (τ : Fin 64) (j : Fin 256) :
    k0_pay3 (F := Ideal) x0 wt bs (ix3 p τ j) = (∑ c : Fin 256, x0 (ix3 p τ c) * wt (ix2 c j)) + bs (ix2 (0 : Fin 1) j) := by
  unfold k0_pay3 k0_pay2
  dsimp only
  simp only [unflat_apply, addf_apply, proj_apply, biasRow_apply, shapeCast_self, truncf_apply, flat_apply]

theorem projK_eq : @k0_pay4 = @k0_pay3 := rfl
theorem projV_eq : @k0_pay5 = @k0_pay3 := rfl

end Cert.KSide

end
-- ==== Proof.KBody.lean ====
/-
  The kernel body's one store read at an index, at the ideal values. A head starting at channel `off` is the generic head
  of its three channel slices; the eight heads laid side by side, flattened to rows, are projected by the (in, out)
  output weight plus its bias row. Put together, the block's result at `(p, τ, o)` is the window specification of
  window `p`'s 64 tokens.
-/
import proofs.«155583_j73237782331844_1_alg».proof.Proof.KHead
import proofs.«155583_j73237782331844_1_alg».proof.Proof.KProj

noncomputable section

namespace Cert.KSide

open Cert.KernelIdeal Cert.KernelIdeal.Gen Idealize.ShloMosaic Idealize.ShloMosaic.ValueIdx Cert.WinAttn

/-- The head whose channels start at `off`, from the three projections of a block. -/
def headOf (off : Nat) (hs : S32x64x256.Slices ![0, 0, off] S32x64x32) (Q K V : FVec Ideal S32x64x256 .f32) :
    FVec Ideal S32x64x32 .f32 :=
  k0_pay9 (F := Ideal) (truncf .bf16 (extractStridedSlice S32x64x32 ![0, 0, off] V hs) bitsLt_bf16_f32)
    (matmul dot_S32x64x32_S32x64x32_S32x64x64_2_2_1_1_0_0 none
      (truncf .bf16 (extractStridedSlice S32x64x32 ![0, 0, off] Q hs) bitsLt_bf16_f32)
      (truncf .bf16 (extractStridedSlice S32x64x32 ![0, 0, off] K hs) bitsLt_bf16_f32)
      (constant S32x64x64 .f32 0x00000000#32))
    (k0_pay8 (F := Ideal))

theorem headOf_apply (off : Nat) (hoff : off + 32 ≤ 256) (hs : S32x64x256.Slices ![0, 0, off] S32x64x32)
    (Q K V : FVec Ideal S32x64x256 .f32) (p : Fin 32) (τ : Fin 64) (d : Fin 32) :
    headOf off hs Q K V (ix3 p τ d)
      = attn (fun σ => (∑ k : Fin 32, Q (ix3 p τ (chanAt off hoff k)) * K (ix3 p σ (chanAt off hoff k))) * scale)
          (fun σ => V (ix3 p σ (chanAt off hoff d))) := by
  unfold headOf
  rw [head_apply]
  simp only [truncf_apply, headSlice_apply off hoff]

/-- The eight heads by number. -/
def sel8 (h0 h1 h2 h3 h4 h5 h6 h7 : FVec Ideal S32x64x32 .f32) : Fin 8 → FVec Ideal S32x64x32 .f32
  | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7
  | ⟨n + 8, h⟩ => absurd h (by omega)

/-- Eight 32-channel pieces laid side by side read, at channel `c`, piece `c / 32` at channel `c % 32`. -/
theorem concat8_apply (h0 h1 h2 h3 h4 h5 h6 h7 : FVec Ideal S32x64x32 .f32)
    (hc : Shape.Concatenates [S32x64x32, S32x64x32, S32x64x32, S32x64x32, S32x64x32, S32x64x32, S32x64x32, S32x64x32] S32x64x256 2)
    (p : Fin 32) (τ : Fin 64) (c : Fin 256) :
    concatenate S32x64x256 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c)
      = sel8 h0 h1 h2 h3 h4 h5 h6 h7 (hOf c) (ix3 p τ (dOf c)) := by
  have hdm : 32 * (c.val / 32) + c.val % 32 = c.val := Nat.div_add_mod c.val 32
  have key : ∀ k : Fin 8, c.val / 32 = k.val →
      concatenate S32x64x256 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) = sel8 h0 h1 h2 h3 h4 h5 h6 h7 k (ix3 p τ (dOf c)) := by
    intro k hv
    match k, hv with
    | ⟨0, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 0 (by show (0 : Nat) < 8; omega) S32x64x32 h0 rfl rfl 0 rfl (ix3 p τ (dOf c))
        (fun b hb => by
          match b with
          | ⟨0, _⟩ => rfl
          | ⟨1, _⟩ => rfl
          | ⟨2, _⟩ => exact absurd rfl hb)
        (by show 0 + c.val % 32 = c.val; simp only at hv; omega)
    | ⟨1, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 1 (by show (1 : Nat) < 8; omega) S32x64x32 h1 rfl rfl 32 rfl (ix3 p τ (dOf c))
        (fun b hb => by
          match b with
          | ⟨0, _⟩ => rfl
          | ⟨1, _⟩ => rfl
          | ⟨2, _⟩ => exact absurd rfl hb)
        (by show 32 + c.val % 32 = c.val; simp only at hv; omega)
    | ⟨2, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 2 (by show (2 : Nat) < 8; omega) S32x64x32 h2 rfl rfl 64 rfl (ix3 p τ (dOf c))
        (fun b hb => by
          match b with
          | ⟨0, _⟩ => rfl
          | ⟨1, _⟩ => rfl
          | ⟨2, _⟩ => exact absurd rfl hb)
        (by show 64 + c.val % 32 = c.val; simp only at hv; omega)
    | ⟨3, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 3 (by show (3 : Nat) < 8; omega) S32x64x32 h3 rfl rfl 96 rfl (ix3 p τ (dOf c))
        (fun b hb => by
          match b with
          | ⟨0, _⟩ => rfl
          | ⟨1, _⟩ => rfl
          | ⟨2, _⟩ => exact absurd rfl hb)
        (by show 96 + c.val % 32 = c.val; simp only at hv; omega)
    | ⟨4, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 4 (by show (4 : Nat) < 8; omega) S32x64x32 h4 rfl rfl 128 rfl (ix3 p τ (dOf c))
        (fun b hb => by
          match b with
          | ⟨0, _⟩ => rfl
          | ⟨1, _⟩ => rfl
          | ⟨2, _⟩ => exact absurd rfl hb)
        (by show 128 + c.val % 32 = c.val; simp only at hv; omega)
    | ⟨5, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 5 (by show (5 : Nat) < 8; omega) S32x64x32 h5 rfl rfl 160 rfl (ix3 p τ (dOf c))
        (fun b hb => by
          match b with
          | ⟨0, _⟩ => rfl
          | ⟨1, _⟩ => rfl
          | ⟨2, _⟩ => exact absurd rfl hb)
        (by show 160 + c.val % 32 = c.val; simp only at hv; omega)
    | ⟨6, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 6 (by show (6 : Nat) < 8; omega) S32x64x32 h6 rfl rfl 192 rfl (ix3 p τ (dOf c))
        (fun b hb => by
          match b with
          | ⟨0, _⟩ => rfl
          | ⟨1, _⟩ => rfl
          | ⟨2, _⟩ => exact absurd rfl hb)
        (by show 192 + c.val % 32 = c.val; simp only at hv; omega)
    | ⟨7, _⟩, hv =>
      exact concatenate_apply_piece 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] hc (ix3 p τ c) 7 (by show (7 : Nat) < 8; omega) S32x64x32 h7 rfl rfl 224 rfl (ix3 p τ (dOf c))
        (fun b hb => by
          match b with
          | ⟨0, _⟩ => rfl
          | ⟨1, _⟩ => rfl
          | ⟨2, _⟩ => exact absurd rfl hb)
        (by show 224 + c.val % 32 = c.val; simp only at hv; omega)
    | ⟨n + 8, hn⟩, _ => exact absurd hn (by omega)
  exact key (hOf c) rfl

/-- The output projection of the eight heads. -/
def projOut (h0 h1 h2 h3 h4 h5 h6 h7 : FVec Ideal S32x64x32 .f32) (wp : Vec Ideal S256x256 .f32) (bp : Vec Ideal S1x256 .f32) :
    FVec Ideal S32x64x256 .f32 :=
  shapeCast S32x64x256
    (addf
      (matmul dot_S2048x256_S256x256_S2048x256_1_0_0_1_n_n none
        (truncf .bf16 (shapeCast S2048x256 (concatenate S32x64x256 2 [⟨S32x64x32, h0⟩, ⟨S32x64x32, h1⟩, ⟨S32x64x32, h2⟩, ⟨S32x64x32, h3⟩, ⟨S32x64x32, h4⟩, ⟨S32x64x32, h5⟩, ⟨S32x64x32, h6⟩, ⟨S32x64x32, h7⟩] concatenates_S32x64x32_S32x64x32_S32x64x32_S32x64x32_S32x64x32_S32x64x32_S32x64x32_S32x64x32_S32x64x256_d2) shapeCasts_S32x64x256_S2048x256) bitsLt_bf16_f32)
        (truncf .bf16 (shapeCast S256x256 wp shapeCasts_S256x256_S256x256) bitsLt_bf16_f32)
        (constant S2048x256 .f32 0x00000000#32))
      (broadcastTo S2048x256 (shapeCast S1x256 bp shapeCasts_S1x256_S1x256) broadcasts_S1x256_S2048x256))
    shapeCasts_S2048x256_S32x64x256

theorem projOut_apply (h0 h1 h2 h3 h4 h5 h6 h7 : FVec Ideal S32x64x32 .f32) (wp : Vec Ideal S256x256 .f32) (bp : Vec Ideal S1x256 .f32)
    (p : Fin 32) (τ : Fin 64) (o : Fin 256) :
    projOut h0 h1 h2 h3 h4 h5 h6 h7 wp bp (ix3 p τ o)
      = (∑ c : Fin 256, sel8 h0 h1 h2 h3 h4 h5 h6 h7 (hOf c) (ix3 p τ (dOf c)) * wp (ix2 c o)) + bp (ix2 (0 : Fin 1) o) := by
  unfold projOut
  simp only [unflat_apply, addf_apply, proj_apply, biasRow_apply, shapeCast_self, truncf_apply, flat_apply, concat8_apply]

end Cert.KSide

end
-- ==== Proof.KBlock.lean ====
/-
  The block's result as the window specification. The body's store is the output projection of the eight heads of the
  block's three projections (the body's intermediate values regrouped, nothing computed); read at `(p, τ, o)`, with
  the block's inputs named — window `p`'s tokens `x`, the stacked projection weight `w` and bias `b` read through
  their (in, out) slices, the output weight `wp` and bias `bp` — it is `WinAttn.out x w b wp bp τ o`.
-/
import proofs.«155583_j73237782331844_1_alg».proof.Proof.Gen.KernelIdeal.Frame
import proofs.«155583_j73237782331844_1_alg».proof.Proof.KBody

noncomputable section

namespace Cert.KSide

open Cert.KernelIdeal Cert.KernelIdeal.Gen Idealize.ShloMosaic Idealize.ShloMosaic.ValueIdx Cert.WinAttn

theorem projK_apply (x0 : FVec Ideal S32x64x256 .f32) (wt : FVec Ideal S256x256 .f32) (bs : FVec Ideal S1x256 .f32)
    (p : Fin 32) (τ : Fin 64) (j : Fin 256) :
    k0_pay4 (F := Ideal) x0 wt bs (ix3 p τ j) = (∑ c : Fin 256, x0 (ix3 p τ c) * wt (ix2 c j)) + bs (ix2 (0 : Fin 1) j) :=
  projQ_apply x0 wt bs p τ j

theorem projV_apply (x0 : FVec Ideal S32x64x256 .f32) (wt : FVec Ideal S256x256 .f32) (bs : FVec Ideal S1x256 .f32)
    (p : Fin 32) (τ : Fin 64) (j : Fin 256) :
    k0_pay5 (F := Ideal) x0 wt bs (ix3 p τ j) = (∑ c : Fin 256, x0 (ix3 p τ c) * wt (ix2 c j)) + bs (ix2 (0 : Fin 1) j) :=
  projQ_apply x0 wt bs p τ j

/-! ## The body's values regrouped by head -/

section Regroup
variable (x0 : FVec Ideal S32x64x256 .f32) (x1 x2 x3 : FVec Ideal S256x256 .f32) (x4 x5 x6 : FVec Ideal S1x256 .f32)
  (Q K V : FVec Ideal S32x64x256 .f32)

theorem head0_eq : k0_pay9 (F := Ideal) (k0_pay6 x0 x3 x6) (k0_pay7 x0 x1 x2 x4 x5) (k0_pay8 (F := Ideal))
    = headOf 0 slices_S32x64x256_o0_0_0_S32x64x32 (k0_pay3 x0 x1 x4) (k0_pay4 x0 x2 x5) (k0_pay5 x0 x3 x6) := rfl
theorem head1_eq : k0_pay10 (F := Ideal) Q K V = headOf 32 slices_S32x64x256_o0_0_32_S32x64x32 Q K V := rfl
theorem head2_eq : k0_pay14 (F := Ideal) (k0_pay11 V) (k0_pay12 Q K) (k0_pay13 Q K) = headOf 64 slices_S32x64x256_o0_0_64_S32x64x32 Q K V := rfl
theorem head3_eq : k0_pay15 (F := Ideal) Q K V = headOf 96 slices_S32x64x256_o0_0_96_S32x64x32 Q K V := rfl
theorem head4_eq : k0_pay16 (F := Ideal) Q K V = headOf 128 slices_S32x64x256_o0_0_128_S32x64x32 Q K V := rfl
theorem head5_eq : k0_pay20 (F := Ideal) (k0_pay17 Q) (k0_pay18 K) (k0_pay19 V) = headOf 160 slices_S32x64x256_o0_0_160_S32x64x32 Q K V := rfl
theorem head6_eq : k0_pay21 (F := Ideal) Q K V = headOf 192 slices_S32x64x256_o0_0_192_S32x64x32 Q K V := rfl
theorem tail_eq (h0 h1 h2 h3 h4 h5 h6 : FVec Ideal S32x64x32 .f32) (wp : Vec Ideal S256x256 .f32) (bp : Vec Ideal S1x256 .f32) :
    k0_pay1 (F := Ideal) h0 h1 h2 h3 h4 h5 h6 (k0_pay22 V) (k0_pay23 Q K) (k0_pay24 Q K) wp bp
      = projOut h0 h1 h2 h3 h4 h5 h6 (headOf 224 slices_S32x64x256_o0_0_224_S32x64x32 Q K V) wp bp := rfl

end Regroup

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, from the input blocks. -/
theorem out_eq (x0 : Vec Ideal S32x64x256 .f32) (x1 x2 x3 : Vec Ideal S256x256 .f32) (x4 x5 x6 : Vec Ideal S1x256 .f32)
    (x7 : Vec Ideal S256x256 .f32) (x8 : Vec Ideal S1x256 .f32) :
    out0_9 (F := Ideal) x0 x1 x2 x3 x4 x5 x6 x7 x8
      = projOut (headOf 0 slices_S32x64x256_o0_0_0_S32x64x32 (k0_pay3 x0 x1 x4) (k0_pay4 x0 x2 x5) (k0_pay5 x0 x3 x6))
          (headOf 32 slices_S32x64x256_o0_0_32_S32x64x32 (k0_pay3 x0 x1 x4) (k0_pay4 x0 x2 x5) (k0_pay5 x0 x3 x6))
          (headOf 64 slices_S32x64x256_o0_0_64_S32x64x32 (k0_pay3 x0 x1 x4) (k0_pay4 x0 x2 x5) (k0_pay5 x0 x3 x6))
          (headOf 96 slices_S32x64x256_o0_0_96_S32x64x32 (k0_pay3 x0 x1 x4) (k0_pay4 x0 x2 x5) (k0_pay5 x0 x3 x6))
          (headOf 128 slices_S32x64x256_o0_0_128_S32x64x32 (k0_pay3 x0 x1 x4) (k0_pay4 x0 x2 x5) (k0_pay5 x0 x3 x6))
          (headOf 160 slices_S32x64x256_o0_0_160_S32x64x32 (k0_pay3 x0 x1 x4) (k0_pay4 x0 x2 x5) (k0_pay5 x0 x3 x6))
          (headOf 192 slices_S32x64x256_o0_0_192_S32x64x32 (k0_pay3 x0 x1 x4) (k0_pay4 x0 x2 x5) (k0_pay5 x0 x3 x6))
          (headOf 224 slices_S32x64x256_o0_0_224_S32x64x32 (k0_pay3 x0 x1 x4) (k0_pay4 x0 x2 x5) (k0_pay5 x0 x3 x6))
          x7 x8 := by
  unfold out0_9
  rw [View.canon_unit_zero hz3]
  simp only [View.ld_unit_zero (S := S32x64x256) hz3, View.ld_unit_zero (S := S256x256) hz2, View.ld_unit_zero (S := S1x256) hz2]
  rw [head0_eq, head1_eq, head2_eq, head3_eq, head4_eq, head5_eq, head6_eq, tail_eq]

/-! ## Against the specification -/

/-- Row `j` of part `g` in the stacked projection weight. -/
def qrow (g : Fin 3) (j : Fin 256) : Fin 768 := ⟨256 * g.val + j.val, by omega⟩

theorem qrow_chanAt (g : Fin 3) (off : Nat) (hoff : off + 32 ≤ 256) (h : Fin 8) (hh : off = 32 * h.val) (d : Fin 32) :
    qrow g (chanAt off hoff d) = row g h d :=
  Fin.ext (by subst hh; show 256 * g.val + (32 * h.val + d.val) = 256 * g.val + 32 * h.val + d.val; omega)

section Spec
variable (x : Fin 64 → Fin 256 → EReal) (w : Fin 768 → Fin 256 → EReal) (b : Fin 768 → EReal)
  (wp : Fin 256 → Fin 256 → EReal) (bp : Fin 256 → EReal)

/-- The head starting at channel `32·h` is head `h` of the specification. -/
theorem headOf_spec (off : Nat) (hoff : off + 32 ≤ 256) (hs : S32x64x256.Slices ![0, 0, off] S32x64x32)
    (h : Fin 8) (hh : off = 32 * h.val)
    (x0 : FVec Ideal S32x64x256 .f32) (x1 x2 x3 : FVec Ideal S256x256 .f32) (x4 x5 x6 : FVec Ideal S1x256 .f32)
    (p : Fin 32) (hx : ∀ τ c, x0 (ix3 p τ c) = x τ c)
    (hq : ∀ c j, x1 (ix2 c j) = w (qrow 0 j) c) (hk : ∀ c j, x2 (ix2 c j) = w (qrow 1 j) c)
    (hv : ∀ c j, x3 (ix2 c j) = w (qrow 2 j) c)
    (hbq : ∀ j, x4 (ix2 (0 : Fin 1) j) = b (qrow 0 j)) (hbk : ∀ j, x5 (ix2 (0 : Fin 1) j) = b (qrow 1 j))
    (hbv : ∀ j, x6 (ix2 (0 : Fin 1) j) = b (qrow 2 j))
    (τ : Fin 64) (d : Fin 32) :
    headOf off hs (k0_pay3 x0 x1 x4) (k0_pay4 x0 x2 x5) (k0_pay5 x0 x3 x6) (ix3 p τ d) = headOut x w b τ h d := by
  rw [headOf_apply off hoff, headOut_eq_attn]
  simp only [projQ_apply, projK_apply, projV_apply, hx, hq, hk, hv, hbq, hbk, hbv, qrow_chanAt _ off hoff h hh]
  rfl

/-- The block's result at `(p, τ, o)`. -/
theorem block_apply (x0 : Vec Ideal S32x64x256 .f32) (x1 x2 x3 : Vec Ideal S256x256 .f32) (x4 x5 x6 : Vec Ideal S1x256 .f32)
    (x7 : Vec Ideal S256x256 .f32) (x8 : Vec Ideal S1x256 .f32)
    (p : Fin 32) (hx : ∀ τ c, x0 (ix3 p τ c) = x τ c)
    (hq : ∀ c j, x1 (ix2 c j) = w (qrow 0 j) c) (hk' : ∀ c j, x2 (ix2 c j) = w (qrow 1 j) c)
    (hv : ∀ c j, x3 (ix2 c j) = w (qrow 2 j) c)
    (hbq : ∀ j, x4 (ix2 (0 : Fin 1) j) = b (qrow 0 j)) (hbk : ∀ j, x5 (ix2 (0 : Fin 1) j) = b (qrow 1 j))
    (hbv : ∀ j, x6 (ix2 (0 : Fin 1) j) = b (qrow 2 j))
    (hwp : ∀ c o, x7 (ix2 c o) = wp o c) (hbp : ∀ o, x8 (ix2 (0 : Fin 1) o) = bp o)
    (τ : Fin 64) (o : Fin 256) :
    out0_9 (F := Ideal) x0 x1 x2 x3 x4 x5 x6 x7 x8 (ix3 p τ o) = WinAttn.out x w b wp bp τ o := by
  rw [out_eq, projOut_apply]
  unfold WinAttn.out
  rw [hbp]
  refine congrArg (· + bp o) (Finset.sum_congr rfl fun c _ => ?_)
  rw [hwp]
  refine congrArg (· * wp o c) ?_
  generalize hOf c = h
  generalize dOf c = d
  match h with
  | ⟨0, hk⟩ => exact headOf_spec x w b 0 (by omega) slices_S32x64x256_o0_0_0_S32x64x32 ⟨0, hk⟩ rfl x0 x1 x2 x3 x4 x5 x6 p hx hq hk' hv hbq hbk hbv τ d
  | ⟨1, hk⟩ => exact headOf_spec x w b 32 (by omega) slices_S32x64x256_o0_0_32_S32x64x32 ⟨1, hk⟩ rfl x0 x1 x2 x3 x4 x5 x6 p hx hq hk' hv hbq hbk hbv τ d
  | ⟨2, hk⟩ => exact headOf_spec x w b 64 (by omega) slices_S32x64x256_o0_0_64_S32x64x32 ⟨2, hk⟩ rfl x0 x1 x2 x3 x4 x5 x6 p hx hq hk' hv hbq hbk hbv τ d
  | ⟨3, hk⟩ => exact headOf_spec x w b 96 (by omega) slices_S32x64x256_o0_0_96_S32x64x32 ⟨3, hk⟩ rfl x0 x1 x2 x3 x4 x5 x6 p hx hq hk' hv hbq hbk hbv τ d
  | ⟨4, hk⟩ => exact headOf_spec x w b 128 (by omega) slices_S32x64x256_o0_0_128_S32x64x32 ⟨4, hk⟩ rfl x0 x1 x2 x3 x4 x5 x6 p hx hq hk' hv hbq hbk hbv τ d
  | ⟨5, hk⟩ => exact headOf_spec x w b 160 (by omega) slices_S32x64x256_o0_0_160_S32x64x32 ⟨5, hk⟩ rfl x0 x1 x2 x3 x4 x5 x6 p hx hq hk' hv hbq hbk hbv τ d
  | ⟨6, hk⟩ => exact headOf_spec x w b 192 (by omega) slices_S32x64x256_o0_0_192_S32x64x32 ⟨6, hk⟩ rfl x0 x1 x2 x3 x4 x5 x6 p hx hq hk' hv hbq hbk hbv τ d
  | ⟨7, hk⟩ => exact headOf_spec x w b 224 (by omega) slices_S32x64x256_o0_0_224_S32x64x32 ⟨7, hk⟩ rfl x0 x1 x2 x3 x4 x5 x6 p hx hq hk' hv hbq hbk hbv τ d
  | ⟨n + 8, hn⟩ => exact absurd hn (by omega)

end Spec

end Cert.KSide

end
-- ==== Proof.KHost.lean ====
/-
  What the host operations before the kernel's launch leave in the arrays the kernel's windows read: the window-partitioned
  input as one whole-array term, and the transposed slices of the stacked projection weight, the slices of its bias, the
  transposed output weight and the output bias, each read at an index.
-/
import proofs.«155583_j73237782331844_1_alg».proof.Proof.Gen.KernelIdeal.Frame
import Idealize.ShloMosaic.Lib.StableHlo.Run
import Idealize.ShloMosaic.Lib.ValueLayout
import Idealize.ShloMosaic.Lib.Pipeline.Value
import Idealize.ShloMosaic.Lib.ValueIdx

noncomputable section

namespace Cert.KSide

open Cert.KernelIdeal Cert.KernelIdeal.Gen Idealize.ShloMosaic Idealize.ShloMosaic.TcCoe Idealize.ShloMosaic.ValueIdx

/-- Row `256·g + j` of the stacked projection weight: row `j` of part `g`. -/
def hrow (g : Fin 3) (j : Fin 256) : Fin 768 := ⟨256 * g.val + j.val, by omega⟩

/-- Window `p` of the block of 32 windows that grid point `t` handles. -/
def winOf (t : Fin 128) (p : Fin 32) : Fin 4096 := ⟨32 * t.val + p.val, by omega⟩

variable (m : (ℓ : Loc nD τ sig) → Buf (Elt Ideal) ℓ) (c : Dev nD)

/-- The window-partitioned input: the launched input cast, transposed and cast again (not opened here). -/
theorem hostX : V m c main_v2 = shapeCast S4096x64x256 (transpose S4x32x32x8x8x256 [0, 2, 4, 3, 5, 1]
    (shapeCast S4x256x32x8x32x8 (m ((c : Thread nD τ).loc main_arg0)) shapeCasts_S4x256x256x256_S4x256x32x8x32x8)
    transposes_S4x256x32x8x32x8_S4x32x32x8x8x256_0_2_4_3_5_1) shapeCasts_S4x32x32x8x8x256_S4096x64x256 := by
  show StableHlo.after hostOps0 (fun b => m (c, b)) (Proc.devRef .tc main_v2) = _
  after_results
  try rfl

theorem hostWq_whole : (V m c main_v4 : S256x256.Idx → EReal)
    = transpose S256x256 [1, 0] (extractStridedSlice S256x256 ![0, 0] (m ((c : Thread nD τ).loc main_arg1))
        slices_S768x256_S256x256_0_0) transposes_S256x256_S256x256_1_0 := by
  show StableHlo.after hostOps0 (fun b => m (c, b)) (Proc.devRef .tc main_v4) = _
  after_results
  try rfl

/-- The query weight the kernel reads: the first third of the stacked weight's rows, transposed. -/
theorem hostWq (a j : Fin 256) : V m c main_v4 (ix2 a j) = m ((c : Thread nD τ).loc main_arg1) (ix2 (hrow 0 j) a) := by
  rw [hostWq_whole, transpose_ix2_apply]
  exact slice2_axis0_apply 0 _ _ j a (hrow 0 j) (by simp [hrow])

theorem hostWk_whole : (V m c main_v6 : S256x256.Idx → EReal)
    = transpose S256x256 [1, 0] (extractStridedSlice S256x256 ![256, 0] (m ((c : Thread nD τ).loc main_arg1))
        slices_S768x256_S256x256_256_0) transposes_S256x256_S256x256_1_0 := by
  show StableHlo.after hostOps0 (fun b => m (c, b)) (Proc.devRef .tc main_v6) = _
  after_results
  try rfl

/-- The key weight: the second third of the stacked weight's rows, transposed. -/
theorem hostWk (a j : Fin 256) : V m c main_v6 (ix2 a j) = m ((c : Thread nD τ).loc main_arg1) (ix2 (hrow 1 j) a) := by
  rw [hostWk_whole, transpose_ix2_apply]
  exact slice2_axis0_apply 256 _ _ j a (hrow 1 j) (by simp [hrow])

theorem hostWv_whole : (V m c main_v8 : S256x256.Idx → EReal)
    = transpose S256x256 [1, 0] (extractStridedSlice S256x256 ![512, 0] (m ((c : Thread nD τ).loc main_arg1))
        slices_S768x256_S256x256_512_0) transposes_S256x256_S256x256_1_0 := by
  show StableHlo.after hostOps0 (fun b => m (c, b)) (Proc.devRef .tc main_v8) = _
  after_results
  try rfl

/-- The value weight: the last third of the stacked weight's rows, transposed. -/
theorem hostWv (a j : Fin 256) : V m c main_v8 (ix2 a j) = m ((c : Thread nD τ).loc main_arg1) (ix2 (hrow 2 j) a) := by
  rw [hostWv_whole, transpose_ix2_apply]
  exact slice2_axis0_apply 512 _ _ j a (hrow 2 j) (by simp [hrow])

theorem hostBq_whole : (V m c main_v10 : S1x256.Idx → EReal)
    = shapeCast S1x256 (extractStridedSlice S256 ![0] (m ((c : Thread nD τ).loc main_arg2)) slices_S768_S256_0)
        shapeCasts_S256_S1x256 := by
  show StableHlo.after hostOps0 (fun b => m (c, b)) (Proc.devRef .tc main_v10) = _
  after_results
  try rfl

/-- The query bias: the first third of the stacked bias, as one row. -/
theorem hostBq (j : Fin 256) : V m c main_v10 (ix2 (0 : Fin 1) j) = m ((c : Thread nD τ).loc main_arg2) (ix1 (hrow 0 j)) := by
  rw [hostBq_whole, shapeCast_a_1a_apply]
  exact extractStridedSlice_apply _ _ _ _ _ (fun ax => by
    match ax with
    | ⟨0, _⟩ => simp [hrow])

theorem hostBk_whole : (V m c main_v12 : S1x256.Idx → EReal)
    = shapeCast S1x256 (extractStridedSlice S256 ![256] (m ((c : Thread nD τ).loc main_arg2)) slices_S768_S256_256)
        shapeCasts_S256_S1x256 := by
  show StableHlo.after hostOps0 (fun b => m (c, b)) (Proc.devRef .tc main_v12) = _
  after_results
  try rfl

/-- The key bias: the second third of the stacked bias, as one row. -/
theorem hostBk (j : Fin 256) : V m c main_v12 (ix2 (0 : Fin 1) j) = m ((c : Thread nD τ).loc main_arg2) (ix1 (hrow 1 j)) := by
  rw [hostBk_whole, shapeCast_a_1a_apply]
  exact extractStridedSlice_apply _ _ _ _ _ (fun ax => by
    match ax with
    | ⟨0, _⟩ => simp [hrow])

theorem hostBv_whole : (V m c main_v14 : S1x256.Idx → EReal)
    = shapeCast S1x256 (extractStridedSlice S256 ![512] (m ((c : Thread nD τ).loc main_arg2)) slices_S768_S256_512)
        shapeCasts_S256_S1x256 := by
  show StableHlo.after hostOps0 (fun b => m (c, b)) (Proc.devRef .tc main_v14) = _
  after_results
  try rfl

/-- The value bias: the last third of the stacked bias, as one row. -/
theorem hostBv (j : Fin 256) : V m c main_v14 (ix2 (0 : Fin 1) j) = m ((c : Thread nD τ).loc main_arg2) (ix1 (hrow 2 j)) := by
  rw [hostBv_whole, shapeCast_a_1a_apply]
  exact extractStridedSlice_apply _ _ _ _ _ (fun ax => by
    match ax with
    | ⟨0, _⟩ => simp [hrow])

theorem hostWp_whole : (V m c main_v15 : S256x256.Idx → EReal)
    = transpose S256x256 [1, 0] (m ((c : Thread nD τ).loc main_arg3)) transposes_S256x256_S256x256_1_0 := by
  show StableHlo.after hostOps0 (fun b => m (c, b)) (Proc.devRef .tc main_v15) = _
  after_results
  try rfl

/-- The output weight the kernel reads: the launched one transposed. -/
theorem hostWp (a o : Fin 256) : V m c main_v15 (ix2 a o) = m ((c : Thread nD τ).loc main_arg3) (ix2 o a) := by
  rw [hostWp_whole, transpose_ix2_apply]

theorem hostBp_whole : (V m c main_v16 : S1x256.Idx → EReal)
    = shapeCast S1x256 (m ((c : Thread nD τ).loc main_arg4)) shapeCasts_S256_S1x256 := by
  show StableHlo.after hostOps0 (fun b => m (c, b)) (Proc.devRef .tc main_v16) = _
  after_results
  try rfl

/-- The output bias as one row. -/
theorem hostBp (o : Fin 256) : V m c main_v16 (ix2 (0 : Fin 1) o) = m ((c : Thread nD τ).loc main_arg4) (ix1 o) := by
  rw [hostBp_whole, shapeCast_a_1a_apply]

end Cert.KSide

end
-- ==== Proof.KReads.lean ====
/-
  The kernel's windows at a grid point: point `t` reads windows `32·t … 32·t + 31` of the partitioned input and the whole
  of every weight and bias array, and writes back the same 32 windows of the output array.
-/
import proofs.«155583_j73237782331844_1_alg».proof.Proof.KHost

noncomputable section

namespace Cert.KSide

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

theorem pt_lt (t : Fin cfg0.N) : t.val < 128 := by
  have h : t.val < grid0.N := t.isLt
  rw [N_0] at h
  exact h

/-- A grid point as a number below 128. -/
abbrev gridPt (t : Fin cfg0.N) : Fin 128 := ⟨t.val, pt_lt t⟩

/-- The printed index maps, decided over the grid: the input and output windows' blocks advance with the point along the
    first axis only, and every weight and bias window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0 :=
  (by decide +kernel : ∀ t : Fin grid0.N, _)

/-- The input block at point `t` is windows `32·t + p` of the partitioned input. -/
theorem read0 (t : Fin cfg0.N) (p : Fin 32) (τ' : Fin 64) (a : Fin 256) :
    iblk m c 0 t (ix3 p τ' a) = V m c main_v2 (ix3 (winOf (gridPt t) p) τ' a) := by
  obtain ⟨e0, e1, e2, -⟩ := idx_facts t
  have h0 : ((cfg0.win 0).blk t).view.emb (ix3 p τ' a) = ix3 (winOf (gridPt t) p) τ' a := by
    funext ax; apply Fin.ext
    match ax with
    | ⟨0, _⟩ => show win0_0.index t (0 : Fin 3) * 32 + 1 * p.val = 32 * t.val + p.val; omega
    | ⟨1, _⟩ => show win0_0.index t (1 : Fin 3) * 64 + 1 * τ'.val = τ'.val; omega
    | ⟨2, _⟩ => show win0_0.index t (2 : Fin 3) * 256 + 1 * a.val = a.val; omega
  show V m c main_v2 (((cfg0.win 0).blk t).view.emb (ix3 p τ' a)) = _
  rw [h0]

/-- Every point reads the whole query weight. -/
theorem read1 (t : Fin cfg0.N) (a j : Fin 256) : iblk m c 1 t (ix2 a j) = V m c main_v4 (ix2 a j) := by
  obtain ⟨-, -, -, e0, e1, -, -, -, -, -, -, -, -, -, -, -, -, -, -, -⟩ := idx_facts t
  have h0 : ((cfg0.win 1).blk t).view.emb (ix2 a j) = ix2 a j := by
    funext ax; apply Fin.ext
    match ax with
    | ⟨0, _⟩ => show win0_1.index t (0 : Fin 2) * 256 + 1 * a.val = a.val; omega
    | ⟨1, _⟩ => show win0_1.index t (1 : Fin 2) * 256 + 1 * j.val = j.val; omega
  show V m c main_v4 (((cfg0.win 1).blk t).view.emb (ix2 a j)) = _
  rw [h0]

/-- Every point reads the whole key weight. -/
theorem read2 (t : Fin cfg0.N) (a j : Fin 256) : iblk m c 2 t (ix2 a j) = V m c main_v6 (ix2 a j) := by
  obtain ⟨-, -, -, -, -, e0, e1, -, -, -, -, -, -, -, -, -, -, -, -, -⟩ := idx_facts t
  have h0 : ((cfg0.win 2).blk t).view.emb (ix2 a j) = ix2 a j := by
    funext ax; apply Fin.ext
    match ax with
    | ⟨0, _⟩ => show win0_2.index t (0 : Fin 2) * 256 + 1 * a.val = a.val; omega
    | ⟨1, _⟩ => show win0_2.index t (1 : Fin 2) * 256 + 1 * j.val = j.val; omega
  show V m c main_v6 (((cfg0.win 2).blk t).view.emb (ix2 a j)) = _
  rw [h0]

/-- Every point reads the whole value weight. -/
theorem read3 (t : Fin cfg0.N) (a j : Fin 256) : iblk m c 3 t (ix2 a j) = V m c main_v8 (ix2 a j) := by
  obtain ⟨-, -, -, -, -, -, -, e0, e1, -, -, -, -, -, -, -, -, -, -, -⟩ := idx_facts t
  have h0 : ((cfg0.win 3).blk t).view.emb (ix2 a j) = ix2 a j := by
    funext ax; apply Fin.ext
    match ax with
    | ⟨0, _⟩ => show win0_3.index t (0 : Fin 2) * 256 + 1 * a.val = a.val; omega
    | ⟨1, _⟩ => show win0_3.index t (1 : Fin 2) * 256 + 1 * j.val = j.val; omega
  show V m c main_v8 (((cfg0.win 3).blk t).view.emb (ix2 a j)) = _
  rw [h0]

/-- Every point reads the whole query bias. -/
theorem read4 (t : Fin cfg0.N) (j : Fin 256) :
    iblk m c 4 t (ix2 (0 : Fin 1) j) = V m c main_v10 (ix2 (0 : Fin 1) j) := by
  obtain ⟨-, -, -, -, -, -, -, -, -, e0, e1, -, -, -, -, -, -, -, -, -⟩ := idx_facts t
  have h0 : ((cfg0.win 4).blk t).view.emb (ix2 (0 : Fin 1) j) = ix2 (0 : Fin 1) j := by
    funext ax; apply Fin.ext
    match ax with
    | ⟨0, _⟩ => show win0_4.index t (0 : Fin 2) * 1 + 1 * (0 : Fin 1).val = (0 : Fin 1).val; omega
    | ⟨1, _⟩ => show win0_4.index t (1 : Fin 2) * 256 + 1 * j.val = j.val; omega
  show V m c main_v10 (((cfg0.win 4).blk t).view.emb (ix2 (0 : Fin 1) j)) = _
  rw [h0]

/-- Every point reads the whole key bias. -/
theorem read5 (t : Fin cfg0.N) (j : Fin 256) :
    iblk m c 5 t (ix2 (0 : Fin 1) j) = V m c main_v12 (ix2 (0 : Fin 1) j) := by
  obtain ⟨-, -, -, -, -, -, -, -, -, -, -, e0, e1, -, -, -, -, -, -, -⟩ := idx_facts t
  have h0 : ((cfg0.win 5).blk t).view.emb (ix2 (0 : Fin 1) j) = ix2 (0 : Fin 1) j := by
    funext ax; apply Fin.ext
    match ax with
    | ⟨0, _⟩ => show win0_5.index t (0 : Fin 2) * 1 + 1 * (0 : Fin 1).val = (0 : Fin 1).val; omega
    | ⟨1, _⟩ => show win0_5.index t (1 : Fin 2) * 256 + 1 * j.val = j.val; omega
  show V m c main_v12 (((cfg0.win 5).blk t).view.emb (ix2 (0 : Fin 1) j)) = _
  rw [h0]

/-- Every point reads the whole value bias. -/
theorem read6 (t : Fin cfg0.N) (j : Fin 256) :
    iblk m c 6 t (ix2 (0 : Fin 1) j) = V m c main_v14 (ix2 (0 : Fin 1) j) := by
  obtain ⟨-, -, -, -, -, -, -, -, -, -, -, -, -, e0, e1, -, -, -, -, -⟩ := idx_facts t
  have h0 : ((cfg0.win 6).blk t).view.emb (ix2 (0 : Fin 1) j) = ix2 (0 : Fin 1) j := by
    funext ax; apply Fin.ext
    match ax with
    | ⟨0, _⟩ => show win0_6.index t (0 : Fin 2) * 1 + 1 * (0 : Fin 1).val = (0 : Fin 1).val; omega
    | ⟨1, _⟩ => show win0_6.index t (1 : Fin 2) * 256 + 1 * j.val = j.val; omega
  show V m c main_v14 (((cfg0.win 6).blk t).view.emb (ix2 (0 : Fin 1) j)) = _
  rw [h0]

/-- Every point reads the whole output weight. -/
theorem read7 (t : Fin cfg0.N) (a j : Fin 256) : iblk m c 7 t (ix2 a j) = V m c main_v15 (ix2 a j) := by
  obtain ⟨-, -, -, -, -, -, -, -, -, -, -, -, -, -, -, e0, e1, -, -, -⟩ := idx_facts t
  have h0 : ((cfg0.win 7).blk t).view.emb (ix2 a j) = ix2 a j := by
    funext ax; apply Fin.ext
    match ax with
    | ⟨0, _⟩ => show win0_7.index t (0 : Fin 2) * 256 + 1 * a.val = a.val; omega
    | ⟨1, _⟩ => show win0_7.index t (1 : Fin 2) * 256 + 1 * j.val = j.val; omega
  show V m c main_v15 (((cfg0.win 7).blk t).view.emb (ix2 a j)) = _
  rw [h0]

/-- Every point reads the whole output bias. -/
theorem read8 (t : Fin cfg0.N) (j : Fin 256) :
    iblk m c 8 t (ix2 (0 : Fin 1) j) = V m c main_v16 (ix2 (0 : Fin 1) j) := by
  obtain ⟨-, -, -, -, -, -, -, -, -, -, -, -, -, -, -, -, -, e0, e1, -⟩ := idx_facts t
  have h0 : ((cfg0.win 8).blk t).view.emb (ix2 (0 : Fin 1) j) = ix2 (0 : Fin 1) j := by
    funext ax; apply Fin.ext
    match ax with
    | ⟨0, _⟩ => show win0_8.index t (0 : Fin 2) * 1 + 1 * (0 : Fin 1).val = (0 : Fin 1).val; omega
    | ⟨1, _⟩ => show win0_8.index t (1 : Fin 2) * 256 + 1 * j.val = j.val; omega
  show V m c main_v16 (((cfg0.win 8).blk t).view.emb (ix2 (0 : Fin 1) j)) = _
  rw [h0]

/-- The output block at point `t` sits at windows `32·t + p` of the output array. -/
theorem emb9 (t : Fin cfg0.N) (p : Fin 32) (τ' : Fin 64) (o : Fin 256) :
    ((cfg0.win 9).blk t).view.emb (ix3 p τ' o) = ix3 (winOf (gridPt t) p) τ' o := by
  obtain ⟨-, -, -, -, -, -, -, -, -, -, -, -, -, -, -, -, -, -, -, e0, e1, e2⟩ := idx_facts t
  funext ax; apply Fin.ext
  match ax with
  | ⟨0, _⟩ => show win0_9.index t (0 : Fin 3) * 32 + 1 * p.val = 32 * t.val + p.val; omega
  | ⟨1, _⟩ => show win0_9.index t (1 : Fin 3) * 64 + 1 * τ'.val = τ'.val; omega
  | ⟨2, _⟩ => show win0_9.index t (2 : Fin 3) * 256 + 1 * o.val = o.val; omega

end Cert.KSide

end
-- ==== Proof.KCover.lean ====
/-
  The blocks the grid points write back cover the output array: window `n` lies in the block of point `n / 32`.
-/
import proofs.«155583_j73237782331844_1_alg».proof.Proof.KReads

noncomputable section

namespace Cert.KSide

open Cert.KernelIdeal Cert.KernelIdeal.Gen Idealize.ShloMosaic Idealize.ShloMosaic.TcCoe Idealize.ShloMosaic.ValueIdx

/-- An index of the output array is in point `t`'s block iff each coordinate is in the block's range on its axis. -/
theorem mem_blk9 (t : Fin cfg0.N) (i : S4096x64x256.Idx) :
    i ∈ ((cfg0.win 9).blk t).view.set ↔ ∀ a : Fin 3, win0_9.index t a * S32x64x256.size a ≤ (i a).val
      ∧ (i a).val < win0_9.index t a * S32x64x256.size a + S32x64x256.size a := by
  show i ∈ ((View.whole main_v17).slice (win0_9.rect t)).set ↔ _
  rw [View.set_slice_whole, Rect.mem_set_unit]
  exact Iff.rfl

/-- Every index of the output array lies in the block that some grid point writes back. -/
theorem cover9 (i : S4096x64x256.Idx) :
    ∃ t : Fin cfg0.N, (cfg0.win 9).flush t = true ∧ i ∈ ((cfg0.win 9).blk t).view.set := by
  have hi0 : (i 0).val < 4096 := (i 0).isLt
  have hi1 : (i 1).val < 64 := (i 1).isLt
  have hi2 : (i 2).val < 256 := (i 2).isLt
  have hN : grid0.N = 128 := N_0
  have hlt : (i 0).val / 32 < grid0.N := by omega
  obtain ⟨t, ht⟩ : ∃ t : Fin cfg0.N, t.val = (i 0).val / 32 := ⟨⟨(i 0).val / 32, hlt⟩, rfl⟩
  refine ⟨t, flush0_9 t, ?_⟩
  rw [mem_blk9]
  obtain ⟨-, -, -, -, -, -, -, -, -, -, -, -, -, -, -, -, -, -, -, e0, e1, e2⟩ := idx_facts t
  intro a
  match a with
  | ⟨0, _⟩ =>
    show win0_9.index t (0 : Fin 3) * 32 ≤ (i 0).val ∧ (i 0).val < win0_9.index t (0 : Fin 3) * 32 + 32
    omega
  | ⟨1, _⟩ =>
    show win0_9.index t (1 : Fin 3) * 64 ≤ (i 1).val ∧ (i 1).val < win0_9.index t (1 : Fin 3) * 64 + 64
    omega
  | ⟨2, _⟩ =>
    show win0_9.index t (2 : Fin 3) * 256 ≤ (i 2).val ∧ (i 2).val < win0_9.index t (2 : Fin 3) * 256 + 256
    omega

end Cert.KSide

end
-- ==== Proof.KRun.lean ====
/-
  The kernel's program as a whole, at the ideal values. Each grid point writes back the window specification of its 32
  windows, the blocks fill the region's output array, and the host operations after the region merge the windows back
  into the image layout: the program ends with its result at `mergeBack (region m c)` and its arguments unchanged.
-/
import proofs.«155583_j73237782331844_1_alg».proof.Proof.KBlock
import proofs.«155583_j73237782331844_1_alg».proof.Proof.KHost
import proofs.«155583_j73237782331844_1_alg».proof.Proof.KReads
import proofs.«155583_j73237782331844_1_alg».proof.Proof.KCover
import Idealize.ShloMosaic.Lib.StableHlo.Run
import Idealize.ShloMosaic.Lib.Pipeline.Value

noncomputable section

namespace Cert.KSide

open Cert.KernelIdeal Cert.KernelIdeal.Gen Idealize.ShloMosaic Idealize.ShloMosaic.TcCoe Idealize.ShloMosaic.ValueIdx
open Idealize.SL.Sem Cert.WinAttn

variable (m : (ℓ : Loc nD τ sig) → Buf (Elt Ideal) ℓ) (ρ : Dev nD → PrngReg) (c : Dev nD)

/-- The stacked projection weight, its bias, the output weight and its bias, as launched. -/
def stackW : Fin 768 → Fin 256 → EReal := fun j a => m ((c : Thread nD τ).loc main_arg1) (ix2 j a)
def stackB : Fin 768 → EReal := fun j => m ((c : Thread nD τ).loc main_arg2) (ix1 j)
def outW : Fin 256 → Fin 256 → EReal := fun o a => m ((c : Thread nD τ).loc main_arg3) (ix2 o a)
def outB : Fin 256 → EReal := fun o => m ((c : Thread nD τ).loc main_arg4) (ix1 o)

/-- The region's output array at window `n`, token `τ`, channel `o`: the specification of window `n` of the
    partitioned input. -/
def regionAt (n : Fin 4096) (τ' : Fin 64) (o : Fin 256) : EReal :=
  WinAttn.out (fun σ a => V m c main_v2 (ix3 n σ a)) (stackW m c) (stackB m c) (outW m c) (outB m c) τ' o

def region : S4096x64x256.Idx → EReal := fun i =>
  regionAt m c ⟨(i 0).val, (i 0).isLt⟩ ⟨(i 1).val, (i 1).isLt⟩ ⟨(i 2).val, (i 2).isLt⟩

theorem region_ix3 (n : Fin 4096) (τ' : Fin 64) (o : Fin 256) : region m c (ix3 n τ' o) = regionAt m c n τ' o := rfl

/-- What grid point `t` writes back is its block of `region`. -/
theorem flushed9_eq (t : Fin cfg0.N) :
    (dats m 0 c).flushed 9 t = ((cfg0.win 9).blk t).view.read (Elt Ideal) (region m c) := by
  show (cfg0.win 9).cut (grid0.coords t) ((dats m 0 c).after 9 t) = _
  rw [after0_9]
  funext j
  obtain ⟨p, τ', o, rfl⟩ : ∃ (p : Fin 32) (τ' : Fin 64) (o : Fin 256), j = ix3 p τ' o := ⟨j 0, j 1, j 2, eq_ix3 j⟩
  show out0_9 (iblk m c 0 t) (iblk m c 1 t) (iblk m c 2 t) (iblk m c 3 t) (iblk m c 4 t) (iblk m c 5 t) (iblk m c 6 t) (iblk m c 7 t) (iblk m c 8 t) (ix3 p τ' o)
    = region m c (((cfg0.win 9).blk t).view.emb (ix3 p τ' o))
  rw [emb9, region_ix3]
  exact block_apply (fun σ a => V m c main_v2 (ix3 (winOf (gridPt t) p) σ a)) (stackW m c) (stackB m c) (outW m c) (outB m c)
    (iblk m c 0 t) (iblk m c 1 t) (iblk m c 2 t) (iblk m c 3 t) (iblk m c 4 t) (iblk m c 5 t) (iblk m c 6 t) (iblk m c 7 t) (iblk m c 8 t) p
    (fun σ a => read0 m c t p σ a)
    (fun a j => (read1 m c t a j).trans (hostWq m c a j))
    (fun a j => (read2 m c t a j).trans (hostWk m c a j))
    (fun a j => (read3 m c t a j).trans (hostWv m c a j))
    (fun j => (read4 m c t j).trans (hostBq m c j))
    (fun j => (read5 m c t j).trans (hostBk m c j))
    (fun j => (read6 m c t j).trans (hostBv m c j))
    (fun a o => (read7 m c t a o).trans (hostWp m c a o))
    (fun o => (read8 m c t o).trans (hostBp m c o))
    τ' o

/-- The region's output array after the run. -/
theorem final9 : (dats m 0 c).arrAt 9 cfg0.N = region m c :=
  (dats m 0 c).arrAt_eq_of_cover 9 (region m c) (fun t _ => flushed9_eq m c t) (cover9)

/-- The windows merged back into the image layout. -/
def mergeBack (Z : S4096x64x256.Idx → EReal) : S4x256x256x256.Idx → EReal :=
  shapeCast S4x256x256x256 (transpose S4x256x32x8x32x8 [0, 5, 1, 3, 2, 4]
    (shapeCast S4x32x32x8x8x256 Z shapeCasts_S4096x64x256_S4x32x32x8x8x256)
    transposes_S4x32x32x8x8x256_S4x256x32x8x32x8_0_5_1_3_2_4) shapeCasts_S4x256x32x8x32x8_S4x256x256x256

/-- The host operations after the region, applied to the region's output array. -/
theorem tail_of_final (G : S4096x64x256.Idx → EReal) (hfin : (dats m 0 c).arrAt 9 cfg0.N = G) :
    Pipeline.afterTail₀ cfgs (dats m) 0 (V0 m) [hostOps1] c main_v20 = mergeBack G := by
  unfold Pipeline.afterTail₀
  show StableHlo.after hostOps1 _ (Proc.devRef .tc main_v20) = _
  after_results
  rw [show Pipeline.withArrays (cfgs 0).spec c (V0 m c) (fun w => (dats m 0 c).arrAt w (cfgs 0).N) (Proc.tc.devRef main_v17) = G from
    (Pipeline.withArrays_arr spec0 launch0.win.arr_inj c _ _ 9).trans hfin]
  rfl

/-- THE RUN: every weakly fair execution terminates with the result at the merged specification and the arguments
    unchanged. -/
theorem krun : θ_run defs (onTc (τ := τ) (main (F := Ideal))) ⟨m, fun _ => 0, ρ⟩ (fun r => ∀ c : Dev nD,
      r.2.mem ((c.tc : Thread nD τ).loc main_v20) = mergeBack (region m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v20 (Pipeline.mem_restRefs_of main_v20 (by decide) (by decide))).trans (tail_of_final m c _ (final9 m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KSide

end
-- ==== Proof.RefLin.lean ====
/-
  The reference program's projection stage, read index by index: the stacked projection of a window's tokens, and its
  three parts (queries, keys, values) laid out per head, are the specification's `lin`.
-/
import proofs.«155583_j73237782331844_1_alg».proof.Proof.Gen.ReferenceIdeal.Read
import proofs.«155583_j73237782331844_1_alg».proof.Proof.Spec

noncomputable section

namespace Cert.RefSide

open Idealize.ShloMosaic Idealize.ShloMosaic.ValueIdx Cert.ReferenceIdeal Cert.ReferenceIdeal.Read

/-- The window's tokens, the stacked projection weight and its bias as plain functions of their coordinates. -/
abbrev X (x0 : (⟨S4x256x256x256, .f32⟩ : BufTy).Contents (Elt Ideal)) (n : Fin 4096) : Fin 64 → Fin 256 → EReal :=
  fun τ c => val_main_v2 (F := Ideal) x0 (ix3 n τ c)
abbrev W (x1 : (⟨S768x256, .f32⟩ : BufTy).Contents (Elt Ideal)) : Fin 768 → Fin 256 → EReal := fun j c => x1 (ix2 j c)
abbrev B (x2 : (⟨S768, .f32⟩ : BufTy).Contents (Elt Ideal)) : Fin 768 → EReal := fun j => x2 (ix1 j)

variable (x0 : (⟨S4x256x256x256, .f32⟩ : BufTy).Contents (Elt Ideal)) (x1 : (⟨S768x256, .f32⟩ : BufTy).Contents (Elt Ideal))
  (x2 : (⟨S768, .f32⟩ : BufTy).Contents (Elt Ideal))

theorem lidx3 (n : Fin 4096) (τ : Fin 64) (j : Fin 768) (k : Fin 256) : lidx_main_v3 (ix3 n τ j) k = ix3 n τ k := by
  funext a
  match a with
  | ⟨0, _⟩ => rfl
  | ⟨1, _⟩ => rfl
  | ⟨2, _⟩ => rfl

theorem ridx3 (n : Fin 4096) (τ : Fin 64) (j : Fin 768) (k : Fin 256) : ridx_main_v3 (ix3 n τ j) k = ix2 j k := by
  funext a
  match a with
  | ⟨0, _⟩ => rfl
  | ⟨1, _⟩ => rfl

theorem idx45 (n : Fin 4096) (τ : Fin 64) (j : Fin 768) : idx_main_v4 (idx_main_v5 (ix3 n τ j)) = ix1 j := by
  funext a
  match a with
  | ⟨0, _⟩ => rfl

/-- The stacked projection at token `τ` of window `n`, row `j`. -/
theorem v6_eq (n : Fin 4096) (τ : Fin 64) (j : Fin 768) :
    val_main_v6 (F := Ideal) x0 x1 x2 (ix3 n τ j) = (∑ c : Fin 256, X x0 n τ c * W x1 j c) + B x2 j := by
  rw [val_main_v6_apply, val_main_v3_apply, val_main_v5_apply, val_main_v4_apply, idx45]
  simp only [lidx3, ridx3, Ideal.addf_def]

/-- Dropping the leading unit axis of a part's slice (the three parts' reshapes compute the same index). -/
theorem idx10 (n : Fin 4096) (h : Fin 8) (τ : Fin 64) (d : Fin 32) :
    idx_main_v10 (ix4 n h τ d) = ix5 (0 : Fin 1) n h τ d := by
  have hn := n.isLt; have hh := h.isLt; have hτ := τ.isLt; have hd := d.isLt
  funext a
  match a with
  | ⟨0, _⟩ => rfl
  | ⟨1, _⟩ => exact Fin.ext (by dsimp only [ix4, ix5]; omega)
  | ⟨2, _⟩ => exact Fin.ext (by dsimp only [ix4, ix5]; omega)
  | ⟨3, _⟩ => exact Fin.ext (by dsimp only [ix4, ix5]; omega)
  | ⟨4, _⟩ => exact Fin.ext (by dsimp only [ix4, ix5]; omega)

theorem idx12 (n : Fin 4096) (h : Fin 8) (τ : Fin 64) (d : Fin 32) :
    idx_main_v12 (ix4 n h τ d) = ix5 (0 : Fin 1) n h τ d := idx10 n h τ d

theorem idx14 (n : Fin 4096) (h : Fin 8) (τ : Fin 64) (d : Fin 32) :
    idx_main_v14 (ix4 n h τ d) = ix5 (0 : Fin 1) n h τ d := idx10 n h τ d

/-- The slices take part 0, 1 and 2 of the transposed array. -/
theorem idx9 (n : Fin 4096) (h : Fin 8) (τ : Fin 64) (d : Fin 32) :
    idx_main_v9 (ix5 (0 : Fin 1) n h τ d) = ix5 (0 : Fin 3) n h τ d := by
  funext a
  match a with
  | ⟨0, _⟩ => rfl
  | ⟨1, _⟩ => rfl
  | ⟨2, _⟩ => rfl
  | ⟨3, _⟩ => rfl
  | ⟨4, _⟩ => rfl

theorem idx11 (n : Fin 4096) (h : Fin 8) (τ : Fin 64) (d : Fin 32) :
    idx_main_v11 (ix5 (0 : Fin 1) n h τ d) = ix5 (1 : Fin 3) n h τ d := by
  funext a
  match a with
  | ⟨0, _⟩ => rfl
  | ⟨1, _⟩ => rfl
  | ⟨2, _⟩ => rfl
  | ⟨3, _⟩ => rfl
  | ⟨4, _⟩ => rfl

theorem idx13 (n : Fin 4096) (h : Fin 8) (τ : Fin 64) (d : Fin 32) :
    idx_main_v13 (ix5 (0 : Fin 1) n h τ d) = ix5 (2 : Fin 3) n h τ d := by
  funext a
  match a with
  | ⟨0, _⟩ => rfl
  | ⟨1, _⟩ => rfl
  | ⟨2, _⟩ => rfl
  | ⟨3, _⟩ => rfl
  | ⟨4, _⟩ => rfl

/-- The transposition and the split of the stacked row into (part, head, channel): entry (g, n, h, τ, d) is the
    stacked projection's row `256·g + 32·h + d` at token `τ` of window `n`. -/
theorem idx78 (g : Fin 3) (n : Fin 4096) (h : Fin 8) (τ : Fin 64) (d : Fin 32) :
    idx_main_v7 (idx_main_v8 (ix5 g n h τ d)) = ix3 n τ (WinAttn.row g h d) := by
  have hg := g.isLt; have hn := n.isLt; have hh := h.isLt; have hτ := τ.isLt; have hd := d.isLt
  funext a
  match a with
  | ⟨0, _⟩ => exact Fin.ext (by dsimp only [ix3, ix5, WinAttn.row]; omega)
  | ⟨1, _⟩ => exact Fin.ext (by dsimp only [ix3, ix5, WinAttn.row]; omega)
  | ⟨2, _⟩ => exact Fin.ext (by dsimp only [ix3, ix5, WinAttn.row]; omega)

/-- The transposed array at (g, n, h, τ, d) is part `g`'s projection of token `τ`, head `h`, channel `d`. -/
theorem v8_eq (g : Fin 3) (n : Fin 4096) (h : Fin 8) (τ : Fin 64) (d : Fin 32) :
    val_main_v8 (F := Ideal) x0 x1 x2 (ix5 g n h τ d) = WinAttn.lin (X x0 n) (W x1) (B x2) g τ h d := by
  rw [val_main_v8_apply, val_main_v7_apply, idx78, v6_eq]
  rfl

/-- The queries. -/
theorem v10_eq (n : Fin 4096) (h : Fin 8) (τ : Fin 64) (d : Fin 32) :
    val_main_v10 (F := Ideal) x0 x1 x2 (ix4 n h τ d) = WinAttn.lin (X x0 n) (W x1) (B x2) 0 τ h d := by
  rw [val_main_v10_apply, idx10, val_main_v9_apply, idx9, v8_eq]

/-- The keys. -/
theorem v12_eq (n : Fin 4096) (h : Fin 8) (τ : Fin 64) (d : Fin 32) :
    val_main_v12 (F := Ideal) x0 x1 x2 (ix4 n h τ d) = WinAttn.lin (X x0 n) (W x1) (B x2) 1 τ h d := by
  rw [val_main_v12_apply, idx12, val_main_v11_apply, idx11, v8_eq]

/-- The values. -/
theorem v14_eq (n : Fin 4096) (h : Fin 8) (τ : Fin 64) (d : Fin 32) :
    val_main_v14 (F := Ideal) x0 x1 x2 (ix4 n h τ d) = WinAttn.lin (X x0 n) (W x1) (B x2) 2 τ h d := by
  rw [val_main_v14_apply, idx14, val_main_v13_apply, idx13, v8_eq]

end Cert.RefSide

end
-- ==== Proof.RefSoftmax.lean ====
/-
  The reference program's softmax stage, read index by index: scaled scores, their row maximum, the exponentials,
  their row sums and the normalized weights are the specification's `score`, `smax`, `ex` and `prob`.
-/
import proofs.«155583_j73237782331844_1_alg».proof.Proof.RefLin
import Idealize.ShloMosaic.PureOps.Reduce

noncomputable section

namespace Cert.RefSide

open Idealize.ShloMosaic Idealize.ShloMosaic.ValueIdx Cert.ReferenceIdeal Cert.ReferenceIdeal.Gen Cert.ReferenceIdeal.Read

variable (x0 : (⟨S4x256x256x256, .f32⟩ : BufTy).Contents (Elt Ideal)) (x1 : (⟨S768x256, .f32⟩ : BufTy).Contents (Elt Ideal))
  (x2 : (⟨S768, .f32⟩ : BufTy).Contents (Elt Ideal))

theorem lidx15 (n : Fin 4096) (h : Fin 8) (τ σ : Fin 64) (k : Fin 32) :
    lidx_main_v15 (ix4 n h τ σ) k = ix4 n h τ k := by
  funext a
  match a with
  | ⟨0, _⟩ => rfl
  | ⟨1, _⟩ => rfl
  | ⟨2, _⟩ => rfl
  | ⟨3, _⟩ => rfl

theorem ridx15 (n : Fin 4096) (h : Fin 8) (τ σ : Fin 64) (k : Fin 32) :
    ridx_main_v15 (ix4 n h τ σ) k = ix4 n h σ k := by
  funext a
  match a with
  | ⟨0, _⟩ => rfl
  | ⟨1, _⟩ => rfl
  | ⟨2, _⟩ => rfl
  | ⟨3, _⟩ => rfl

/-- The scaled score of query token `τ` against key token `σ` in head `h` of window `n`. -/
theorem v17_eq (n : Fin 4096) (h : Fin 8) (τ σ : Fin 64) :
    val_main_v17 (F := Ideal) x0 x1 x2 (ix4 n h τ σ) = WinAttn.score (X x0 n) (W x1) (B x2) h τ σ := by
  rw [val_main_v17_apply, val_main_v15_apply, val_main_v16_apply, val_main_cst_apply]
  simp only [lidx15, ridx15, v10_eq, v12_eq]
  rfl

/-- The row maximum: the fold of `max` over the key tokens, from the initial word's value. -/
theorem v18_eq (n : Fin 4096) (h : Fin 8) (τ : Fin 64) :
    val_main_v18 (F := Ideal) x0 x1 x2 (ix3 n h τ)
      = (Finset.univ : Finset (Fin 64)).fold max WinAttn.ninf (fun σ => WinAttn.score (X x0 n) (W x1) (B x2) h τ σ) := by
  have hv : ∀ σ : Fin 64, val_main_v17 (F := Ideal) x0 x1 x2 (ix4 n h τ σ) = WinAttn.score (X x0 n) (W x1) (B x2) h τ σ :=
    fun σ => v17_eq x0 x1 x2 n h τ σ
  unfold val_main_v18
  generalize val_main_v17 (F := Ideal) x0 x1 x2 = y0 at hv ⊢
  have hred : S4096x8x64x64.Reduces [3] S4096x8x64 := by decide
  have key := Host.reduce_eq_fold_single (FloatOps.maximumf (F := Ideal) (φ := .f32)) y0 (val_main_cst_0 (F := Ideal))
    reducesTo_S4096x8x64x64_S4096x8x64_d3 hred h_S_ (ix3 n h τ)
  refine key.trans ?_
  refine Finset.fold_congr (fun σ _ => ?_)
  rw [← hv σ]
  exact congrArg y0 (funext fun a => Fin.ext (by
    match a with
    | ⟨0, _⟩ => rfl
    | ⟨1, _⟩ => rfl
    | ⟨2, _⟩ => rfl
    | ⟨3, _⟩ => rfl))

/-- The maximum the scores are shifted by. -/
theorem v20_eq (n : Fin 4096) (h : Fin 8) (τ : Fin 64) :
    val_main_v20 (F := Ideal) x0 x1 x2 (ix3 n h τ) = WinAttn.smax (X x0 n) (W x1) (B x2) h τ := by
  rw [val_main_v20_apply, val_main_v19_apply, val_main_cst_1_apply, v18_eq]
  rfl

theorem idx2122 (n : Fin 4096) (h : Fin 8) (τ σ : Fin 64) :
    idx_main_v21 (idx_main_v22 (ix4 n h τ σ)) = ix3 n h τ := by
  funext a
  match a with
  | ⟨0, _⟩ => rfl
  | ⟨1, _⟩ => rfl
  | ⟨2, _⟩ => rfl

/-- The unnormalized softmax weight. -/
theorem v24_eq (n : Fin 4096) (h : Fin 8) (τ σ : Fin 64) :
    val_main_v24 (F := Ideal) x0 x1 x2 (ix4 n h τ σ) = WinAttn.ex (X x0 n) (W x1) (B x2) h τ σ := by
  rw [val_main_v24_apply, val_main_v23_apply, val_main_v22_apply, val_main_v21_apply, idx2122, v20_eq, v17_eq]
  rfl

theorem idx25 (n : Fin 4096) (h : Fin 8) (τ : Fin 64) (k : Fin 64) :
    idx_main_v25 (ix3 n h τ) k = ix4 n h τ k := by
  funext a
  match a with
  | ⟨0, _⟩ => rfl
  | ⟨1, _⟩ => rfl
  | ⟨2, _⟩ => rfl
  | ⟨3, _⟩ => rfl

/-- The row sum of the unnormalized weights (the sum starts from the word of zero). -/
theorem v25_eq (n : Fin 4096) (h : Fin 8) (τ : Fin 64) :
    val_main_v25 (F := Ideal) x0 x1 x2 (ix3 n h τ) = ∑ σ : Fin 64, WinAttn.ex (X x0 n) (W x1) (B x2) h τ σ := by
  rw [val_main_v25_apply, val_main_cst_2_apply]
  simp only [idx25, v24_eq, Ideal.ofBits_def, Ideal.ofBits_zero_f32, zero_add]

theorem idx2627 (n : Fin 4096) (h : Fin 8) (τ σ : Fin 64) :
    idx_main_v26 (idx_main_v27 (ix4 n h τ σ)) = ix3 n h τ := by
  funext a
  match a with
  | ⟨0, _⟩ => rfl
  | ⟨1, _⟩ => rfl
  | ⟨2, _⟩ => rfl

/-- The softmax weight. -/
theorem v28_eq (n : Fin 4096) (h : Fin 8) (τ σ : Fin 64) :
    val_main_v28 (F := Ideal) x0 x1 x2 (ix4 n h τ σ) = WinAttn.prob (X x0 n) (W x1) (B x2) h τ σ := by
  rw [val_main_v28_apply, val_main_v27_apply, val_main_v26_apply, idx2627, v25_eq, v24_eq]
  rfl

end Cert.RefSide

end
-- ==== Proof.RefOut.lean ====
/-
  The reference program's output stage, read index by index: the weighted sums of the values per head, the heads laid
  side by side as channels, and the output projection are the specification's `headOut` and `out`.
-/
import proofs.«155583_j73237782331844_1_alg».proof.Proof.RefSoftmax

noncomputable section

namespace Cert.RefSide

open Idealize.ShloMosaic Idealize.ShloMosaic.ValueIdx Cert.ReferenceIdeal Cert.ReferenceIdeal.Gen Cert.ReferenceIdeal.Read

variable (x0 : (⟨S4x256x256x256, .f32⟩ : BufTy).Contents (Elt Ideal)) (x1 : (⟨S768x256, .f32⟩ : BufTy).Contents (Elt Ideal))
  (x2 : (⟨S768, .f32⟩ : BufTy).Contents (Elt Ideal))

theorem lidx29 (n : Fin 4096) (h : Fin 8) (τ : Fin 64) (d : Fin 32) (k : Fin 64) :
    lidx_main_v29 (ix4 n h τ d) k = ix4 n h τ k := by
  funext a
  match a with
  | ⟨0, _⟩ => rfl
  | ⟨1, _⟩ => rfl
  | ⟨2, _⟩ => rfl
  | ⟨3, _⟩ => rfl

theorem ridx29 (n : Fin 4096) (h : Fin 8) (τ : Fin 64) (d : Fin 32) (k : Fin 64) :
    ridx_main_v29 (ix4 n h τ d) k = ix4 n h k d := by
  funext a
  match a with
  | ⟨0, _⟩ => rfl
  | ⟨1, _⟩ => rfl
  | ⟨2, _⟩ => rfl
  | ⟨3, _⟩ => rfl

/-- Head `h`'s output at token `τ`, channel `d`. -/
theorem v29_eq (n : Fin 4096) (h : Fin 8) (τ : Fin 64) (d : Fin 32) :
    val_main_v29 (F := Ideal) x0 x1 x2 (ix4 n h τ d) = WinAttn.headOut (X x0 n) (W x1) (B x2) τ h d := by
  rw [val_main_v29_apply]
  simp only [lidx29, ridx29, v28_eq, v14_eq]
  rfl

/-- Channel `c` of the concatenated heads is channel `c % 32` of head `c / 32`. -/
theorem idx31 (n : Fin 4096) (τ : Fin 64) (c : Fin 256) :
    idx_main_v31 (ix3 n τ c) = ix4 n τ (WinAttn.hOf c) (WinAttn.dOf c) := by
  have hn := n.isLt; have hτ := τ.isLt; have hc := c.isLt
  funext a
  match a with
  | ⟨0, _⟩ => exact Fin.ext (by dsimp only [ix3, ix4, WinAttn.hOf, WinAttn.dOf]; omega)
  | ⟨1, _⟩ => exact Fin.ext (by dsimp only [ix3, ix4, WinAttn.hOf, WinAttn.dOf]; omega)
  | ⟨2, _⟩ => exact Fin.ext (by dsimp only [ix3, ix4, WinAttn.hOf, WinAttn.dOf]; omega)
  | ⟨3, _⟩ => exact Fin.ext (by dsimp only [ix3, ix4, WinAttn.hOf, WinAttn.dOf]; omega)

theorem idx30 (n : Fin 4096) (τ : Fin 64) (h : Fin 8) (d : Fin 32) :
    idx_main_v30 (ix4 n τ h d) = ix4 n h τ d := by
  funext a
  match a with
  | ⟨0, _⟩ => rfl
  | ⟨1, _⟩ => rfl
  | ⟨2, _⟩ => rfl
  | ⟨3, _⟩ => rfl

/-- The heads' outputs laid side by side. -/
theorem v31_eq (n : Fin 4096) (τ : Fin 64) (c : Fin 256) :
    val_main_v31 (F := Ideal) x0 x1 x2 (ix3 n τ c)
      = WinAttn.headOut (X x0 n) (W x1) (B x2) τ (WinAttn.hOf c) (WinAttn.dOf c) := by
  rw [val_main_v31_apply, idx31, val_main_v30_apply, idx30, v29_eq]

end Cert.RefSide

end
-- ==== Proof.RefCore.lean ====
/-
  The reference program up to the point where the windows are merged back: at window `n`, token `τ`, output channel
  `o` its value is the specification's `out` of that window's tokens, the two weights and the two biases.
-/
import proofs.«155583_j73237782331844_1_alg».proof.Proof.RefOut

noncomputable section

namespace Cert.RefSide

open Idealize.ShloMosaic Idealize.ShloMosaic.ValueIdx Cert.ReferenceIdeal Cert.ReferenceIdeal.Gen Cert.ReferenceIdeal.Read

theorem lidx32 (n : Fin 4096) (τ : Fin 64) (o : Fin 256) (k : Fin 256) :
    lidx_main_v32 (ix3 n τ o) k = ix3 n τ k := by
  funext a
  match a with
  | ⟨0, _⟩ => rfl
  | ⟨1, _⟩ => rfl
  | ⟨2, _⟩ => rfl

theorem ridx32 (n : Fin 4096) (τ : Fin 64) (o : Fin 256) (k : Fin 256) :
    ridx_main_v32 (ix3 n τ o) k = ix2 o k := by
  funext a
  match a with
  | ⟨0, _⟩ => rfl
  | ⟨1, _⟩ => rfl

theorem idx3334 (n : Fin 4096) (τ : Fin 64) (o : Fin 256) :
    idx_main_v33 (idx_main_v34 (ix3 n τ o)) = ix1 o := by
  funext a
  match a with
  | ⟨0, _⟩ => rfl

/-- The reference's value before the windows are merged back: the specification's result for window `n`. -/
theorem core (x0 : (⟨S4x256x256x256, .f32⟩ : BufTy).Contents (Elt Ideal)) (x1 : (⟨S768x256, .f32⟩ : BufTy).Contents (Elt Ideal))
    (x2 : (⟨S768, .f32⟩ : BufTy).Contents (Elt Ideal)) (x3 : (⟨S256x256, .f32⟩ : BufTy).Contents (Elt Ideal))
    (x4 : (⟨S256, .f32⟩ : BufTy).Contents (Elt Ideal)) (n : Fin 4096) (τ : Fin 64) (o : Fin 256) :
    val_main_v35 (F := Ideal) x0 x1 x2 x3 x4 (ix3 n τ o)
      = Cert.WinAttn.out (fun τ' c => val_main_v2 (F := Ideal) x0 (ix3 n τ' c)) (fun j c => x1 (ix2 j c))
          (fun j => x2 (ix1 j)) (fun o' c => x3 (ix2 o' c)) (fun o' => x4 (ix1 o')) τ o := by
  rw [val_main_v35_apply, val_main_v32_apply, val_main_v34_apply, val_main_v33_apply, idx3334]
  simp only [lidx32, ridx32, v31_eq]
  rfl

end Cert.RefSide

end
-- ==== Proof.Bridge.lean ====
/-
  The two programs meet. The reference's value before the windows are merged back is, window by window, the same
  specification as the kernel's region array (its partitioned input is the same cast–transpose–cast of the launched
  input), and both programs merge the windows back by the same three layout operations, never opened here.
-/
import proofs.«155583_j73237782331844_1_alg».proof.Proof.KRun
import proofs.«155583_j73237782331844_1_alg».proof.Proof.RefCore

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The reference's value before the merge is the kernel's region array. -/
theorem core_eq :
    Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KSide.region m c := by
  funext i
  obtain ⟨n, τ', o, rfl⟩ : ∃ (n : Fin 4096) (τ' : Fin 64) (o : Fin 256), i = ix3 n τ' o := ⟨i 0, i 1, i 2, eq_ix3 i⟩
  rw [Cert.RefSide.core, Cert.KSide.region_ix3]
  unfold Cert.KSide.regionAt
  rw [Cert.KSide.hostX]
  rfl

/-- The reference's result is the kernel's: the same merge of the same array. -/
theorem ref_eq :
    Cert.ReferenceIdeal.Read.val_main_v38 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KSide.mergeBack (Cert.KSide.region m c) := by
  unfold Cert.ReferenceIdeal.Read.val_main_v38 Cert.ReferenceIdeal.Read.val_main_v37 Cert.ReferenceIdeal.Read.val_main_v36
  rw [core_eq]
  rfl

end Cert.Bridge

end
-- ==== Proof.lean ====
/- The certificate of a windowed multi-head attention kernel against its jnp reference, over the extended reals.
   Both programs cut the image into 4096 windows of 64 tokens by the same cast–transpose–cast, and merge the windows
   back by the same three layout operations; neither is opened. In between, each window's result is one function of its
   tokens and of the launched weights and biases (Proof/Spec.lean): projections to queries, keys and values, per head the
   scaled scores, their softmax over the key tokens and the weighted sum of the values, then the output projection.
   The kernel computes it 32 windows per grid point, head by head on channel slices (Proof/KDots … KBlock, assembled over
   the grid in Proof/KRun); the reference computes it for all windows at once (Proof/RefLin … RefCore). Both use the same
   score scale word and start the row maximum from the same word of −∞, so no law beyond re-indexing finite sums is
   used, and the precondition is never opened. The three frames are the generated ones (the reference's is its generated
   run with the result dropped); the idealization rewrote nothing, so `preserves` is `True`. -/
import proofs.«155583_j73237782331844_1_alg».proof.Defs
import proofs.«155583_j73237782331844_1_alg».proof.Proof.Gen.Kernel
import proofs.«155583_j73237782331844_1_alg».proof.Proof.Gen.Kernel.Skeleton
import proofs.«155583_j73237782331844_1_alg».proof.Proof.Gen.Kernel.Launch
import proofs.«155583_j73237782331844_1_alg».proof.Proof.Gen.Kernel.Points
import proofs.«155583_j73237782331844_1_alg».proof.Proof.Gen.Kernel.Frame
import proofs.«155583_j73237782331844_1_alg».proof.Proof.Gen.KernelIdeal
import proofs.«155583_j73237782331844_1_alg».proof.Proof.Gen.KernelIdeal.Skeleton
import proofs.«155583_j73237782331844_1_alg».proof.Proof.Gen.KernelIdeal.Launch
import proofs.«155583_j73237782331844_1_alg».proof.Proof.Gen.KernelIdeal.Points
import proofs.«155583_j73237782331844_1_alg».proof.Proof.Gen.KernelIdeal.Frame
import proofs.«155583_j73237782331844_1_alg».proof.Proof.Gen.ReferenceIdeal
import proofs.«155583_j73237782331844_1_alg».proof.Proof.Gen.ReferenceIdeal.Run
import proofs.«155583_j73237782331844_1_alg».proof.Proof.Gen.ReferenceIdeal.Read
import proofs.«155583_j73237782331844_1_alg».proof.Proof.Gen.Pre_finite_inputs
import proofs.«155583_j73237782331844_1_alg».proof.Proof.Bridge
import Idealize.ShloMosaic.Adequacy
import Idealize.ShloMosaic.Init

noncomputable section

namespace Cert.Proof

open Idealize.ShloMosaic Idealize.SL.Sem Cert.Kernel

/-- From memories agreeing on the arguments both idealized programs end with the merged window specification. -/
theorem algebraic : Cert.algebraic_KernelIdeal_ReferenceIdeal := by
  intro m ρ m' ρ' _ hagree
  refine ⟨fun c => Cert.KSide.mergeBack (Cert.KSide.region m c), Cert.KSide.krun m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2]
  exact Cert.Bridge.ref_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
